-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S16384x128 : Shape := ⟨2, ![16384, 128]⟩
abbrev S16384 : Shape := ⟨1, ![16384]⟩
abbrev S16384x1 : Shape := ⟨2, ![16384, 1]⟩
abbrev S2048x128 : Shape := ⟨2, ![2048, 128]⟩
abbrev S1024x128 : Shape := ⟨2, ![1024, 128]⟩
abbrev S2048x1 : Shape := ⟨2, ![2048, 1]⟩
abbrev S2048x1024 : Shape := ⟨2, ![2048, 1024]⟩
abbrev S2048 : Shape := ⟨1, ![2048]⟩

abbrev nBuf : Space → Nat
  | .hbm => 43
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S16384x128, .f32⟩
  | .hbm, ⟨23, _⟩ => ⟨S8192x128, .f32⟩
  | .hbm, ⟨24, _⟩ => ⟨S_, .f32⟩
  | .hbm, ⟨25, _⟩ => ⟨S8192, .f32⟩
  | .hbm, ⟨26, _⟩ => ⟨S16384, .f32⟩
  | .hbm, ⟨27, _⟩ => ⟨S_, .f32⟩
  | .hbm, ⟨28, _⟩ => ⟨S16384x128, .f32⟩
  | .hbm, ⟨29, _⟩ => ⟨S16384x128, .f32⟩
  | .hbm, ⟨30, _⟩ => ⟨S16384x128, .bf16⟩
  | .hbm, ⟨31, _⟩ => ⟨S16384x128, .bf16⟩
  | .hbm, ⟨32, _⟩ => ⟨S16384x1, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond4 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  concatenates_S8192x128_S8192x128_S16384x128_d0 : Shape.Concatenates [S8192x128, S8192x128] S16384x128 0
  concatenates_S8192_S8192_S16384_d0 : Shape.Concatenates [S8192, S8192] S16384 0
  bcast_S_S16384x128 : S_.BroadcastsInDim S16384x128 (![] : Fin 0 → Fin S16384x128.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S2048x1024_S2048 : S2048x1024.Reduces [1] S2048
  shapeCasts_S2048_S2048x1 : S2048.ShapeCasts S2048x1
  iota_S2048x1024_d0_w32 : S2048x1024.Iotas .tc 32 [0]
  iota_S2048x1024_d1_w32 : S2048x1024.Iotas .tc 32 [1]
  shapeCasts_S16384x1_S16384 : S16384x1.ShapeCasts S16384
  bcast_S_S16384 : S_.BroadcastsInDim S16384 (![] : Fin 0 → Fin S16384.rank)
  reducesTo_S16384_S_d0 : S16384.ReducesTo [0] S_
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .bf16 = 32 ∨ (Rect.block (s := S16384x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_v16) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S128x16384 : Shape := ⟨2, ![128, 16384]⟩
abbrev S16384x16384 : Shape := ⟨2, ![16384, 16384]⟩
abbrev S8192 : Shape := ⟨1, ![8192]⟩
abbrev S8192x1 : Shape := ⟨2, ![8192, 1]⟩
abbrev S8192x2 : Shape := ⟨2, ![8192, 2]⟩

abbrev nBuf : Space → Nat
  | .hbm => 90
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S16384x128, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x128, .f32⟩
  | .hbm, ⟨12, _⟩ => ⟨S16384x128, .f32⟩
  | .hbm, ⟨13, _⟩ => ⟨S128x16384, .f32⟩
  | .hbm, ⟨14, _⟩ => ⟨S16384x16384, .f32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x1, .i32⟩
  | .hbm, ⟨36, _⟩ => ⟨S8192x2, .i32⟩
  | .hbm, ⟨37, _⟩ => ⟨S8192, .f32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S8192x1, .i32⟩
  | .hbm, ⟨59, _⟩ => ⟨S8192x2, .i32⟩
  | .hbm, ⟨60, _⟩ => ⟨S8192, .f32⟩
  | .hbm, ⟨61, _⟩ => ⟨S16384, .f32⟩
  | .hbm, ⟨62, _⟩ => ⟨S16384x16384, .i32⟩
  | .hbm, ⟨63, _⟩ => ⟨S16384x16384, .i32⟩
  | .hbm, ⟨64, _⟩ => ⟨S_, .i32⟩
  | .hbm, ⟨65, _⟩ => ⟨S16384x16384, .i32⟩
  | .hbm, ⟨66, _⟩ => ⟨S16384x16384, .i32⟩
  | .hbm, ⟨67, _⟩ => ⟨S16384x16384, .i1⟩
  | .hbm, ⟨68, _⟩ => ⟨S16384x16384, .i1⟩
  | .hbm, ⟨69, _⟩ => ⟨S_, .f32⟩
  | .hbm, ⟨70, _⟩ => ⟨S16384x16384, .f32⟩
  | .hbm, ⟨71, _⟩ => ⟨S16384x16384, .f32⟩
  | .hbm, ⟨72, _⟩ => ⟨S16384x16384, .f32⟩
  | .hbm, ⟨73, _⟩ => ⟨S_, .f32⟩
  | .hbm, ⟨74, _⟩ => ⟨S_, .f32⟩
  | .hbm, ⟨75, _⟩ => ⟨S16384x16384, .f32⟩
  | .hbm, ⟨76, _⟩ => ⟨S16384x16384, .f32⟩
  | .hbm, ⟨77, _⟩ => ⟨S_, .f32⟩
  | .hbm, ⟨78, _⟩ => ⟨S16384, .f32⟩
  | .hbm, ⟨79, _⟩ => ⟨S_, .f32⟩
  | .hbm, ⟨80, _⟩ => ⟨S16384, .f32⟩
  | .hbm, ⟨81, _⟩ => ⟨S16384, .f32⟩
  | .hbm, ⟨82, _⟩ => ⟨S16384, .f32⟩
  | .hbm, ⟨83, _⟩ => ⟨S16384, .f32⟩
  | .hbm, ⟨84, _⟩ => ⟨S16384, .f32⟩
  | .hbm, ⟨85, _⟩ => ⟨S16384, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_c : Ref sig .tc := ⟨.hbm, 17, rfl⟩
abbrev main_call1_v2 : Ref sig .tc := ⟨.hbm, 18, rfl⟩
abbrev main_call1_v3 : Ref sig .tc := ⟨.hbm, 19, rfl⟩
abbrev main_call1_c_0 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c_2 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_v15 : Ref sig .tc := ⟨.hbm, 35, rfl⟩
abbrev main_call1_v16 : Ref sig .tc := ⟨.hbm, 36, rfl⟩
abbrev main_v8 : Ref sig .tc := ⟨.hbm, 37, rfl⟩
abbrev main_call2_v0 : Ref sig .tc := ⟨.hbm, 38, rfl⟩
abbrev main_call2_v1 : Ref sig .tc := ⟨.hbm, 39, rfl⟩
abbrev main_call2_c : Ref sig .tc := ⟨.hbm, 40, rfl⟩
abbrev main_call2_v2 : Ref sig .tc := ⟨.hbm, 41, rfl⟩
abbrev main_call2_v3 : Ref sig .tc := ⟨.hbm, 42, rfl⟩
abbrev main_call2_c_0 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c_2 : Ref sig .tc := ⟨.hbm, 50, rfl⟩
abbrev main_call2_v9 : Ref sig .tc := ⟨.hbm, 51, rfl⟩
abbrev main_call2_v10 : Ref sig .tc := ⟨.hbm, 52, rfl⟩
abbrev main_call2_c_3 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_v16 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_c : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_0 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_1 : Ref sig .tc := ⟨.hbm, 73, rfl⟩
abbrev main_call3_v0 : Ref sig .tc := ⟨.hbm, 74, rfl⟩
abbrev main_call3_v1 : Ref sig .tc := ⟨.hbm, 75, rfl⟩
abbrev main_v20 : Ref sig .tc := ⟨.hbm, 76, rfl⟩
abbrev main_cst_2 : Ref sig .tc := ⟨.hbm, 77, rfl⟩
abbrev main_v21 : Ref sig .tc := ⟨.hbm, 78, rfl⟩
abbrev main_cst_3 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_cst_4 : Ref sig .tc := ⟨.hbm, 86, rfl⟩
abbrev main_v28 : Ref sig .tc := ⟨.hbm, 87, rfl⟩
abbrev main_cst_5 : Ref sig .tc := ⟨.hbm, 88, rfl⟩
abbrev main_v29 : Ref sig .tc := ⟨.hbm, 89, rfl⟩

abbrev nD : Nat := 1
abbrev τ : Topo := Topo.v7x

variable {F : FTy → Type} [FloatOps F]

class Facts₀ : Prop where
  concatenates_S8192x128_S8192x128_S16384x128_d0 : Shape.Concatenates [S8192x128, S8192x128] S16384x128 0
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  transposes_S16384x128_S128x16384_1_0 : S16384x128.Transposes [1, 0] S128x16384
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  concatenates_S8192_S8192_S16384_d0 : Shape.Concatenates [S8192, S8192] S16384 0
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x128_S128x16384_S16384x16384_1_0_0_1_n_n_wf : DotDims.WF S16384x128 S128x16384 S16384x16384 [1] [0] [0] [1] [] []
  gather_S16384x16384_S8192x2_S8192_n_01_n_n_01_1_11_wf : GatherDims.WF S16384x16384 S8192x2 S8192 [] [0, 1] [] [0, 1] [] 1 ![1, 1]

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf
def gather_S16384x16384_S8192x2_S8192_n_01_n_n_01_1_11 : GatherDims S16384x16384 S8192x2 S8192 where
  offsetDims := []
  collapsedSliceDims := [0, 1]
  operandBatchingDims := []
  startIndicesBatchingDims := []
  startIndexMap := [0, 1]
  indexVectorDim := 1
  sliceSizes := ![1, 1]
  wf := gather_S16384x16384_S8192x2_S8192_n_01_n_n_01_1_11_wf

class Facts : Prop extends Facts₀ where

variable [Facts]
-- ==== Proof.LibWholeBuffer.lean ====
/-
  Whole-buffer stores and loads.

  A kernel body that stores a value over a whole buffer (the rectangle of the buffer's own extents at offset zero)
  leaves exactly that value there, whatever the buffer held before; a load through the same rectangle of a buffer
  whose contents read `X` reads `X`; and a load of what one such store left reads the stored value.
-/
import Idealize.ShloMosaic.Lib.Pipeline.FrameBody
import Idealize.ShloMosaic.Lib.Pipeline.Value

noncomputable section

namespace Cert.LibWholeBuffer

open Idealize.ShloMosaic

variable {Val : EltTy → Type} [∀ e, Nonempty (Val e)] {sig : RefSig} {κ : Kind} {sp : Space} {S : Shape} {e : EltTy}

/-- The zero offset of a rank-2 rectangle, however it is spelt. -/
theorem zero2 : (![0, 0] : Fin 2 → ℕ) = fun _ => 0 := by
  funext a
  match a with
  | ⟨0, _⟩ => rfl
  | ⟨1, _⟩ => rfl

/-- One store over the whole buffer, read back through the buffer's view, is the stored value. -/
theorem read_store_whole (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load over the whole of a whole buffer whose contents read `X` reads `X`. -/
theorem load_whole {m : Memref sig κ sp S e} (hm : m.IsWhole) (X : S.Idx → Val e) {off : Fin S.rank → Nat}
    (h : off = fun _ => 0) (inb : ∀ a, off a + S.size a ≤ S.size a) :
    m.view.readAt Val (Rect.unit off S.size inb).toLoadRect (hm.unread X) = X := by
  rw [View.readAt_eq_ld, hm.read_unread, View.ld_unit_zero h]

end Cert.LibWholeBuffer

end
-- ==== Proof.LibWholeStores.lean ====
/-
  Several stores over a whole buffer, and loads of the whole buffer.

  When a body stores over the whole of a buffer more than once, the buffer reads the value stored last, whatever was
  stored before and whatever it held at the start; and a load through the rectangle of the buffer's own extents at
  offset zero reads the buffer's contents as they then stand.
-/
import Idealize.ShloMosaic.Lib.Pipeline.FrameBody
import Idealize.ShloMosaic.Lib.Pipeline.Value

noncomputable section

namespace Cert.LibWholeStores

open Idealize.ShloMosaic

variable {Val : EltTy → Type} [∀ e, Nonempty (Val e)] {sig : RefSig} {κ : Kind} {sp : Space} {S : Shape} {e : EltTy}

/-- The last of several stores over the whole buffer is what the buffer reads. -/
theorem read_store_last (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩),
    View.canon_cons_unit_zero h]

/-- A load over the whole buffer reads the buffer's contents. -/
theorem load_all (v : View sig κ sp S e) (g : v.ty.Contents Val) {off : Fin S.rank → Nat} (h : off = fun _ => 0)
    (inb : ∀ a, off a + S.size a ≤ S.size a) :
    v.readAt Val (Rect.unit off S.size inb).toLoadRect g = v.read Val g := by
  rw [View.readAt_eq_ld, View.ld_unit_zero h]

end Cert.LibWholeStores

end
-- ==== Proof.RunsB.lean ====
/-
  The kernel body at one grid point, case by case.

  A grid point is a block of 2048 rows paired with a block of 1024 columns. The body keeps a running sum per row in a
  scratch buffer: it resets the sum at a row block's first column block, adds the column block's row sums of
  exponentials (less the rows' own diagonal entries where the column block meets the diagonal) and, at the row
  block's last column block, stores the sum as the output block. The four conditions are functions of the point's
  coordinates; each run below assumes one assignment of them and states what the scratch and the output block hold
  afterwards, as the body's named payloads of the two input blocks and of what the scratch held before.
-/
import proofs.«113570_j12652973654546_2_alg».proof.Proof.Gen.Kernel.Frame
import proofs.«113570_j12652973654546_2_alg».proof.Proof.Gen.Kernel.Skeleton
import proofs.«113570_j12652973654546_2_alg».proof.Proof.LibWholeBuffer
import proofs.«113570_j12652973654546_2_alg».proof.Proof.LibWholeStores
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

/-- The first column block of a row block: the running sum is reset there. -/
abbrev isFirst (i : grid0.Coords) : Prop :=
  Scalar.cmpi .ne (Scalar.extui (Scalar.cmpi .eq (BitVec.ofNat 32 (i 1).val) 0#32)) 0#32 = 1#1
/-- The column block meets the diagonal of the row block. -/
abbrev onDiag (i : grid0.Coords) : Prop :=
  Scalar.cmpi .ne (Scalar.extui (Scalar.andi
    (Scalar.cmpi .slt (Scalar.muli (BitVec.ofNat 32 (i 0).val) 2048#32) (Scalar.addi (Scalar.muli (BitVec.ofNat 32 (i 1).val) 1024#32) 1024#32))
    (Scalar.cmpi .slt (Scalar.muli (BitVec.ofNat 32 (i 1).val) 1024#32) (Scalar.addi (Scalar.muli (BitVec.ofNat 32 (i 0).val) 2048#32) 2048#32)))) 0#32 = 1#1
/-- The column block misses the diagonal, as the body computes it (the negation of the bit above). -/
abbrev offDiag (i : grid0.Coords) : Prop :=
  Scalar.cmpi .ne (Scalar.extui (Scalar.xori (Scalar.andi
    (Scalar.cmpi .slt (Scalar.muli (BitVec.ofNat 32 (i 0).val) 2048#32) (Scalar.addi (Scalar.muli (BitVec.ofNat 32 (i 1).val) 1024#32) 1024#32))
    (Scalar.cmpi .slt (Scalar.muli (BitVec.ofNat 32 (i 1).val) 1024#32) (Scalar.addi (Scalar.muli (BitVec.ofNat 32 (i 0).val) 2048#32) 2048#32))) 1#1)) 0#32 = 1#1
/-- The last column block of a row block: the running sum is written out there. -/
abbrev isLast (i : grid0.Coords) : Prop := k0_cond4 i = 1#1

/-- At the first column block of a row block, on the diagonal: the running sum is reset, then the block's row sums less the diagonal entries are added; the output block is not touched. -/
theorem run_first_diag (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : isFirst i) (h2 : onDiag i) (h3 : ¬offDiag i) (h4 : ¬isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay4 i x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At the first column block of a row block, off the diagonal: the running sum is reset, then the block's row sums are added; the output block is not touched. -/
theorem run_first_off (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : isFirst i) (h2 : ¬onDiag i) (h3 : offDiag i) (h4 : ¬isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay5 x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At a middle column block on the diagonal: the block's row sums less the diagonal entries are added to the running sum; the output block is not touched. -/
theorem run_mid_diag (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : ¬isFirst i) (h2 : onDiag i) (h3 : ¬offDiag i) (h4 : ¬isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay4 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At a middle column block off the diagonal: the block's row sums are added to the running sum; the output block is not touched. -/
theorem run_mid_off (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : ¬isFirst i) (h2 : ¬onDiag i) (h3 : offDiag i) (h4 : ¬isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay5 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At the last column block of a row block, on the diagonal: the block's row sums less the diagonal entries are added to the running sum, and the sum is stored as the output block. -/
theorem run_last_diag (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : ¬isFirst i) (h2 : onDiag i) (h3 : ¬offDiag i) (h4 : isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay4 i x0 x1 xs)
            ∗ owns (c : Thread nD τ) arg5 fullShare (k0_pay4 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At the last column block of a row block, off the diagonal: the block's row sums are added to the running sum, and the sum is stored as the output block. -/
theorem run_last_off (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : ¬isFirst i) (h2 : ¬onDiag i) (h3 : offDiag i) (h4 : isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay5 x0 x1 xs)
            ∗ owns (c : Thread nD τ) arg5 fullShare (k0_pay5 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

end Cert.Kernel.Body

end
-- ==== Proof.BodyB.lean ====
/-
  The running sum point by point, and the body's obligation to the pipeline.

  The grid's 128 points are visited row block by row block, the sixteen column blocks of a row block in order. What the
  scratch buffer holds after a point is defined by recursion on the point (`accAt`): the body's named payloads of the
  point's two input blocks and of what the point before left, the reset value standing in at a row block's first
  column block. The region's invariant carries the scratch at that value from one point to the next; the output
  window's block is the running sum at a row block's last point and is left as found elsewhere.
-/
import proofs.«113570_j12652973654546_2_alg».proof.Proof.RunsB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four conditions over the grid -/

/-- The grid's first point is a first column block. -/
theorem first_of_zero : ∀ t : Fin cfg0.N, t.val = 0 → isFirst (grid0.coords t) :=
  (by decide +kernel : ∀ t : Fin grid0.N, t.val = 0 → isFirst (grid0.coords t))
/-- With sixteen column blocks no block is both first and last. -/
theorem not_first_last : ∀ t : Fin cfg0.N, isFirst (grid0.coords t) → ¬isLast (grid0.coords t) :=
  (by decide +kernel : ∀ t : Fin grid0.N, isFirst (grid0.coords t) → ¬isLast (grid0.coords t))
/-- The body's second bit is the negation of its first. -/
theorem off_iff : ∀ t : Fin cfg0.N, offDiag (grid0.coords t) ↔ ¬onDiag (grid0.coords t) :=
  (by decide +kernel : ∀ t : Fin grid0.N, offDiag (grid0.coords t) ↔ ¬onDiag (grid0.coords t))
/-- The output window is idle, and not written back, except at a row block's last column block. -/
theorem idle_of_not_last : ∀ t : Fin cfg0.N, ¬isLast (grid0.coords t) → cfg0.idle 2 (grid0.coords t) = true :=
  (by decide +kernel : ∀ t : Fin grid0.N, ¬isLast (grid0.coords t) → cfg0.idle 2 (grid0.coords t) = true)
theorem noflush_of_not_last : ∀ t : Fin cfg0.N, ¬isLast (grid0.coords t) → (cfg0.win 2).flush t = false :=
  (by decide +kernel : ∀ t : Fin grid0.N, ¬isLast (grid0.coords t) → win0_2.flush t = false)
theorem live_of_last : ∀ t : Fin cfg0.N, isLast (grid0.coords t) → cfg0.idle 2 (grid0.coords t) = false :=
  (by decide +kernel : ∀ t : Fin grid0.N, isLast (grid0.coords t) → cfg0.idle 2 (grid0.coords t) = false)
/-- The input windows are never idle. -/
theorem live0 : ∀ t : Fin cfg0.N, cfg0.idle 0 (grid0.coords t) = false := by decide +kernel
theorem live1 : ∀ t : Fin cfg0.N, cfg0.idle 1 (grid0.coords t) = false := by decide +kernel

/-! ## The memrefs the body is called with -/

abbrev ms0 (t : Fin cfg0.N) : Memref sig .tc .vmem S2048x128 .bf16 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S1024x128 .bf16 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S2048x1 .f32 := win0_2.stage (cfg0.slots t 2)
abbrev hs2 (t : Fin cfg0.N) : (ms2 t).IsWhole := Facts₀.hstage0_2 ((cfg0.slots t 2).cast Facts₀.nbuf0_2)
/-- The scratch buffer holding the running sum. -/
abbrev scM : Memref sig .tc .vmem S2048x1 .f32 := Memref.whole cc0_scratch0

/-- What the region may use besides its windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The running sum -/

/-- The running sum after a point, from the point's input blocks and the sum before it. -/
def step (i : grid0.Coords) (x0 : Vec F S2048x128 .bf16) (x1 : Vec F S1024x128 .bf16) (xs : Vec F S2048x1 .f32) : Vec F S2048x1 .f32 :=
  if onDiag i then k0_pay4 i x0 x1 (if isFirst i then k0_pay1 else xs) else k0_pay5 x0 x1 (if isFirst i then k0_pay1 else xs)

theorem step_first_diag {i : grid0.Coords} (h1 : isFirst i) (h2 : onDiag i) (x0 : Vec F S2048x128 .bf16) (x1 : Vec F S1024x128 .bf16) (xs : Vec F S2048x1 .f32) :
    step i x0 x1 xs = k0_pay4 i x0 x1 (k0_pay1 (F := F)) := by unfold step; rw [if_pos h2, if_pos h1]
theorem step_first_off {i : grid0.Coords} (h1 : isFirst i) (h2 : ¬onDiag i) (x0 : Vec F S2048x128 .bf16) (x1 : Vec F S1024x128 .bf16) (xs : Vec F S2048x1 .f32) :
    step i x0 x1 xs = k0_pay5 x0 x1 (k0_pay1 (F := F)) := by unfold step; rw [if_neg h2, if_pos h1]
theorem step_mid_diag {i : grid0.Coords} (h1 : ¬isFirst i) (h2 : onDiag i) (x0 : Vec F S2048x128 .bf16) (x1 : Vec F S1024x128 .bf16) (xs : Vec F S2048x1 .f32) :
    step i x0 x1 xs = k0_pay4 i x0 x1 xs := by unfold step; rw [if_pos h2, if_neg h1]
theorem step_mid_off {i : grid0.Coords} (h1 : ¬isFirst i) (h2 : ¬onDiag i) (x0 : Vec F S2048x128 .bf16) (x1 : Vec F S1024x128 .bf16) (xs : Vec F S2048x1 .f32) :
    step i x0 x1 xs = k0_pay5 x0 x1 xs := by unfold step; rw [if_neg h2, if_neg h1]

/-- What the scratch holds after the body at position `n`. -/
def accAt (c : Dev nD) : (n : ℕ) → n < cfg0.N → Vec F S2048x1 .f32
  | 0, h => step (grid0.coords ⟨0, h⟩) (iblk m c 0 ⟨0, h⟩) (iblk m c 1 ⟨0, h⟩) (k0_pay1 (F := F))
  | n + 1, h => step (grid0.coords ⟨n + 1, h⟩) (iblk m c 0 ⟨n + 1, h⟩) (iblk m c 1 ⟨n + 1, h⟩) (accAt c n (Nat.lt_of_succ_lt h))

theorem accAt_zero (c : Dev nD) (t : Fin cfg0.N) (hz : t.val = 0) :
    accAt m c t.val t.isLt = step (grid0.coords t) (iblk m c 0 t) (iblk m c 1 t) (k0_pay1 (F := F)) := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt = step (grid0.coords t) (iblk m c 0 t) (iblk m c 1 t)
      (accAt m c (t.val - 1) (Nat.lt_of_le_of_lt (Nat.sub_le _ _) t.isLt)) := by
  obtain ⟨n, hn⟩ := t
  cases n with
  | zero => exact absurd rfl hz
  | succ n => rfl

/-- The region's invariant before position `n`: at the start the scratch at anything; afterwards at what the point
    before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The arrays as the region finds them; after the body each input's buffer at its block and the output's at the
    running sum; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: the inputs' buffers hold their blocks; the point's conditions select the run; the invariant
    hands the body the scratch at what the point before left (at anything at the grid's first point, which resets
    it) and takes it back at this point's running sum; the output's buffer is handed back as found unless the point is
    a row block's last, where it holds the running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases hz : t.val = 0
  · by_cases h1 : isFirst (grid0.coords t)
    · -- first column block
      by_cases h2 : onDiag (grid0.coords t)
      · have h3 : ¬offDiag (grid0.coords t) := fun h => ((off_iff t).mp h) h2
        by_cases h4 : isLast (grid0.coords t)
        · exfalso; exact not_first_last t h1 h4
        · rw [Dat.leavesExact_idle (dats m 0 c) 2 t (idle_of_not_last t h4) (noflush_of_not_last t h4)]
          rw [accAt_zero m c t hz, step_first_diag h1 h2, PhiS_castSucc m c t, PhiS_zero m c _ _ hz, PhiA_eq]
          iintro ⟨⟨⟨%xs, HS⟩, Hg⟩, Ho, ⟨%d0, H0⟩, ⟨%d1, H1⟩, ⟨%d2, H2⟩⟩
          iapply (run_first_diag c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
      · have h3 : offDiag (grid0.coords t) := (off_iff t).mpr h2
        by_cases h4 : isLast (grid0.coords t)
        · exfalso; exact not_first_last t h1 h4
        · rw [Dat.leavesExact_idle (dats m 0 c) 2 t (idle_of_not_last t h4) (noflush_of_not_last t h4)]
          rw [accAt_zero m c t hz, step_first_off h1 h2, PhiS_castSucc m c t, PhiS_zero m c _ _ hz, PhiA_eq]
          iintro ⟨⟨⟨%xs, HS⟩, Hg⟩, Ho, ⟨%d0, H0⟩, ⟨%d1, H1⟩, ⟨%d2, H2⟩⟩
          iapply (run_first_off c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
    · -- not the first column block
      exfalso; exact h1 (first_of_zero t hz)
  · by_cases h1 : isFirst (grid0.coords t)
    · -- first column block
      by_cases h2 : onDiag (grid0.coords t)
      · have h3 : ¬offDiag (grid0.coords t) := fun h => ((off_iff t).mp h) h2
        by_cases h4 : isLast (grid0.coords t)
        · exfalso; exact not_first_last t h1 h4
        · rw [Dat.leavesExact_idle (dats m 0 c) 2 t (idle_of_not_last t h4) (noflush_of_not_last t h4)]
          rw [accAt_pos m c t hz, step_first_diag h1 h2, PhiS_castSucc m c t, PhiS_pos m c _ _ hz]
          iintro ⟨⟨HS, Hg⟩, Ho, ⟨%d0, H0⟩, ⟨%d1, H1⟩, ⟨%d2, H2⟩⟩
          iapply (run_first_diag c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
      · have h3 : offDiag (grid0.coords t) := (off_iff t).mpr h2
        by_cases h4 : isLast (grid0.coords t)
        · exfalso; exact not_first_last t h1 h4
        · rw [Dat.leavesExact_idle (dats m 0 c) 2 t (idle_of_not_last t h4) (noflush_of_not_last t h4)]
          rw [accAt_pos m c t hz, step_first_off h1 h2, PhiS_castSucc m c t, PhiS_pos m c _ _ hz]
          iintro ⟨⟨HS, Hg⟩, Ho, ⟨%d0, H0⟩, ⟨%d1, H1⟩, ⟨%d2, H2⟩⟩
          iapply (run_first_off c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
    · -- not the first column block
      by_cases h2 : onDiag (grid0.coords t)
      · have h3 : ¬offDiag (grid0.coords t) := fun h => ((off_iff t).mp h) h2
        by_cases h4 : isLast (grid0.coords t)
        · rw [show (dats m 0 c).leavesExact 2 t = owns (c : Thread nD τ) (ms2 t) fullShare ((dats m 0 c).after 2 t) from by
                  unfold Dat.leavesExact; rw [live_of_last t h4], after2]
          rw [accAt_pos m c t hz, step_mid_diag h1 h2, PhiS_castSucc m c t, PhiS_pos m c _ _ hz]
          iintro ⟨⟨HS, Hg⟩, Ho, ⟨%d0, H0⟩, ⟨%d1, H1⟩, ⟨%d2, H2⟩⟩
          iapply (run_last_diag c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexact H2
        · rw [Dat.leavesExact_idle (dats m 0 c) 2 t (idle_of_not_last t h4) (noflush_of_not_last t h4)]
          rw [accAt_pos m c t hz, step_mid_diag h1 h2, PhiS_castSucc m c t, PhiS_pos m c _ _ hz]
          iintro ⟨⟨HS, Hg⟩, Ho, ⟨%d0, H0⟩, ⟨%d1, H1⟩, ⟨%d2, H2⟩⟩
          iapply (run_mid_diag c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
      · have h3 : offDiag (grid0.coords t) := (off_iff t).mpr h2
        by_cases h4 : isLast (grid0.coords t)
        · rw [show (dats m 0 c).leavesExact 2 t = owns (c : Thread nD τ) (ms2 t) fullShare ((dats m 0 c).after 2 t) from by
                  unfold Dat.leavesExact; rw [live_of_last t h4], after2]
          rw [accAt_pos m c t hz, step_mid_off h1 h2, PhiS_castSucc m c t, PhiS_pos m c _ _ hz]
          iintro ⟨⟨HS, Hg⟩, Ho, ⟨%d0, H0⟩, ⟨%d1, H1⟩, ⟨%d2, H2⟩⟩
          iapply (run_last_off c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexact H2
        · rw [Dat.leavesExact_idle (dats m 0 c) 2 t (idle_of_not_last t h4) (noflush_of_not_last t h4)]
          rw [accAt_pos m c t hz, step_mid_off h1 h2, PhiS_castSucc m c t, PhiS_pos m c _ _ hz]
          iintro ⟨⟨HS, Hg⟩, Ho, ⟨%d0, H0⟩, ⟨%d1, H1⟩, ⟨%d2, H2⟩⟩
          iapply (run_mid_off c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

/-! ## The run -/

set_option backward.isDefEq.respectTransparency.types false in
/-- Every weakly fair execution of the whole program terminates without a fault, each array of the pipeline ending at
    what the library computes from the proof data and every other buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.RunsI.lean ====
/-
  The kernel body at one grid point, case by case.

  A grid point is a block of 2048 rows paired with a block of 1024 columns. The body keeps a running sum per row in a
  scratch buffer: it resets the sum at a row block's first column block, adds the column block's row sums of
  exponentials (less the rows' own diagonal entries where the column block meets the diagonal) and, at the row
  block's last column block, stores the sum as the output block. The four conditions are functions of the point's
  coordinates; each run below assumes one assignment of them and states what the scratch and the output block hold
  afterwards, as the body's named payloads of the two input blocks and of what the scratch held before.
-/
import proofs.«113570_j12652973654546_2_alg».proof.Proof.Gen.KernelIdeal.Frame
import proofs.«113570_j12652973654546_2_alg».proof.Proof.Gen.KernelIdeal.Skeleton
import proofs.«113570_j12652973654546_2_alg».proof.Proof.LibWholeBuffer
import proofs.«113570_j12652973654546_2_alg».proof.Proof.LibWholeStores
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

/-- The first column block of a row block: the running sum is reset there. -/
abbrev isFirst (i : grid0.Coords) : Prop :=
  Scalar.cmpi .ne (Scalar.extui (Scalar.cmpi .eq (BitVec.ofNat 32 (i 1).val) 0#32)) 0#32 = 1#1
/-- The column block meets the diagonal of the row block. -/
abbrev onDiag (i : grid0.Coords) : Prop :=
  Scalar.cmpi .ne (Scalar.extui (Scalar.andi
    (Scalar.cmpi .slt (Scalar.muli (BitVec.ofNat 32 (i 0).val) 2048#32) (Scalar.addi (Scalar.muli (BitVec.ofNat 32 (i 1).val) 1024#32) 1024#32))
    (Scalar.cmpi .slt (Scalar.muli (BitVec.ofNat 32 (i 1).val) 1024#32) (Scalar.addi (Scalar.muli (BitVec.ofNat 32 (i 0).val) 2048#32) 2048#32)))) 0#32 = 1#1
/-- The column block misses the diagonal, as the body computes it (the negation of the bit above). -/
abbrev offDiag (i : grid0.Coords) : Prop :=
  Scalar.cmpi .ne (Scalar.extui (Scalar.xori (Scalar.andi
    (Scalar.cmpi .slt (Scalar.muli (BitVec.ofNat 32 (i 0).val) 2048#32) (Scalar.addi (Scalar.muli (BitVec.ofNat 32 (i 1).val) 1024#32) 1024#32))
    (Scalar.cmpi .slt (Scalar.muli (BitVec.ofNat 32 (i 1).val) 1024#32) (Scalar.addi (Scalar.muli (BitVec.ofNat 32 (i 0).val) 2048#32) 2048#32))) 1#1)) 0#32 = 1#1
/-- The last column block of a row block: the running sum is written out there. -/
abbrev isLast (i : grid0.Coords) : Prop := k0_cond4 i = 1#1

/-- At the first column block of a row block, on the diagonal: the running sum is reset, then the block's row sums less the diagonal entries are added; the output block is not touched. -/
theorem run_first_diag (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : isFirst i) (h2 : onDiag i) (h3 : ¬offDiag i) (h4 : ¬isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay4 i x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At the first column block of a row block, off the diagonal: the running sum is reset, then the block's row sums are added; the output block is not touched. -/
theorem run_first_off (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : isFirst i) (h2 : ¬onDiag i) (h3 : offDiag i) (h4 : ¬isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay5 x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At a middle column block on the diagonal: the block's row sums less the diagonal entries are added to the running sum; the output block is not touched. -/
theorem run_mid_diag (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : ¬isFirst i) (h2 : onDiag i) (h3 : ¬offDiag i) (h4 : ¬isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay4 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At a middle column block off the diagonal: the block's row sums are added to the running sum; the output block is not touched. -/
theorem run_mid_off (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : ¬isFirst i) (h2 : ¬onDiag i) (h3 : offDiag i) (h4 : ¬isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay5 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At the last column block of a row block, on the diagonal: the block's row sums less the diagonal entries are added to the running sum, and the sum is stored as the output block. -/
theorem run_last_diag (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : ¬isFirst i) (h2 : onDiag i) (h3 : ¬offDiag i) (h4 : isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay4 i x0 x1 xs)
            ∗ owns (c : Thread nD τ) arg5 fullShare (k0_pay4 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

/-- At the last column block of a row block, off the diagonal: the block's row sums are added to the running sum, and the sum is stored as the output block. -/
theorem run_last_off (c : Dev nD) (i : grid0.Coords) (arg2 : Memref sig .tc .vmem S2048x128 .bf16) (harg2 : arg2.IsWhole)
    (arg3 : Memref sig .tc .vmem S1024x128 .bf16) (harg3 : arg3.IsWhole) (arg4 : Memref sig .tc .vmem S2048x1 .f32) (harg4 : arg4.IsWhole)
    (arg5 : Memref sig .tc .vmem S2048x1 .f32) (harg5 : arg5.IsWhole)
    (h1 : ¬isFirst i) (h2 : ¬onDiag i) (h3 : offDiag i) (h4 : isLast i)
    (x0 : Vec F S2048x128 .bf16) (x1 : Vec F S1024x128 .bf16) (xo : Vec F S2048x1 .f32) (xs : Vec F S2048x1 .f32)
    (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay5 x0 x1 xs)
            ∗ owns (c : Thread nD τ) arg5 fullShare (k0_pay5 x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact h1 | exact h2 | exact h3 | exact h4)
  sl_step
  iapply Hk
  isplitl [H0]
  · iexists _; isplitr
    · ipureintro; exact harg2.read_unread _
    iexact H0
  isplitl [H1]
  · iexists _; isplitr
    · ipureintro; exact harg3.read_unread _
    iexact H1
  isplitl [HO]
  · iexists _; isplitr
    swap
    · iexact HO
    ipureintro
    sl_unfold_words
    simp only [View.readCov_unit_zero (S := S2048x1) _ Cert.LibWholeBuffer.zero2,
      Cert.LibWholeStores.read_store_last (S := S2048x1) _ _ Cert.LibWholeBuffer.zero2,
      Cert.LibWholeStores.load_all (S := S2048x1) _ _ Cert.LibWholeBuffer.zero2,
      Cert.LibWholeStores.load_all (S := S2048x128) _ _ Cert.LibWholeBuffer.zero2,
      Cert.LibWholeStores.load_all (S := S1024x128) _ _ Cert.LibWholeBuffer.zero2,
      harg2.read_unread, harg3.read_unread, harg4.read_unread, harg5.read_unread]
  iexists _; isplitr
  swap
  · iexact HS
  ipureintro
  sl_unfold_words
  simp only [View.readCov_unit_zero (S := S2048x1) _ Cert.LibWholeBuffer.zero2,
      Cert.LibWholeStores.read_store_last (S := S2048x1) _ _ Cert.LibWholeBuffer.zero2,
    Cert.LibWholeStores.load_all (S := S2048x1) _ _ Cert.LibWholeBuffer.zero2,
    Cert.LibWholeStores.load_all (S := S2048x128) _ _ Cert.LibWholeBuffer.zero2,
    Cert.LibWholeStores.load_all (S := S1024x128) _ _ Cert.LibWholeBuffer.zero2,
    harg2.read_unread, harg3.read_unread, harg4.read_unread, harg5.read_unread]

end Cert.KernelIdeal.Body

end
-- ==== Proof.BodyI.lean ====
/-
  The running sum point by point, and the body's obligation to the pipeline.

  The grid's 128 points are visited row block by row block, the sixteen column blocks of a row block in order. What the
  scratch buffer holds after a point is defined by recursion on the point (`accAt`): the body's named payloads of the
  point's two input blocks and of what the point before left, the reset value standing in at a row block's first
  column block. The region's invariant carries the scratch at that value from one point to the next; the output
  window's block is the running sum at a row block's last point and is left as found elsewhere.
-/
import proofs.«113570_j12652973654546_2_alg».proof.Proof.RunsI

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four conditions over the grid -/

/-- The grid's first point is a first column block. -/
theorem first_of_zero : ∀ t : Fin cfg0.N, t.val = 0 → isFirst (grid0.coords t) :=
  (by decide +kernel : ∀ t : Fin grid0.N, t.val = 0 → isFirst (grid0.coords t))
/-- With sixteen column blocks no block is both first and last. -/
theorem not_first_last : ∀ t : Fin cfg0.N, isFirst (grid0.coords t) → ¬isLast (grid0.coords t) :=
  (by decide +kernel : ∀ t : Fin grid0.N, isFirst (grid0.coords t) → ¬isLast (grid0.coords t))
/-- The body's second bit is the negation of its first. -/
theorem off_iff : ∀ t : Fin cfg0.N, offDiag (grid0.coords t) ↔ ¬onDiag (grid0.coords t) :=
  (by decide +kernel : ∀ t : Fin grid0.N, offDiag (grid0.coords t) ↔ ¬onDiag (grid0.coords t))
/-- The output window is idle, and not written back, except at a row block's last column block. -/
theorem idle_of_not_last : ∀ t : Fin cfg0.N, ¬isLast (grid0.coords t) → cfg0.idle 2 (grid0.coords t) = true :=
  (by decide +kernel : ∀ t : Fin grid0.N, ¬isLast (grid0.coords t) → cfg0.idle 2 (grid0.coords t) = true)
theorem noflush_of_not_last : ∀ t : Fin cfg0.N, ¬isLast (grid0.coords t) → (cfg0.win 2).flush t = false :=
  (by decide +kernel : ∀ t : Fin grid0.N, ¬isLast (grid0.coords t) → win0_2.flush t = false)
theorem live_of_last : ∀ t : Fin cfg0.N, isLast (grid0.coords t) → cfg0.idle 2 (grid0.coords t) = false :=
  (by decide +kernel : ∀ t : Fin grid0.N, isLast (grid0.coords t) → cfg0.idle 2 (grid0.coords t) = false)
/-- The input windows are never idle. -/
theorem live0 : ∀ t : Fin cfg0.N, cfg0.idle 0 (grid0.coords t) = false := by decide +kernel
theorem live1 : ∀ t : Fin cfg0.N, cfg0.idle 1 (grid0.coords t) = false := by decide +kernel

/-! ## The memrefs the body is called with -/

abbrev ms0 (t : Fin cfg0.N) : Memref sig .tc .vmem S2048x128 .bf16 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S1024x128 .bf16 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S2048x1 .f32 := win0_2.stage (cfg0.slots t 2)
abbrev hs2 (t : Fin cfg0.N) : (ms2 t).IsWhole := Facts₀.hstage0_2 ((cfg0.slots t 2).cast Facts₀.nbuf0_2)
/-- The scratch buffer holding the running sum. -/
abbrev scM : Memref sig .tc .vmem S2048x1 .f32 := Memref.whole cc0_scratch0

/-- What the region may use besides its windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The running sum -/

/-- The running sum after a point, from the point's input blocks and the sum before it. -/
def step (i : grid0.Coords) (x0 : Vec F S2048x128 .bf16) (x1 : Vec F S1024x128 .bf16) (xs : Vec F S2048x1 .f32) : Vec F S2048x1 .f32 :=
  if onDiag i then k0_pay4 i x0 x1 (if isFirst i then k0_pay1 else xs) else k0_pay5 x0 x1 (if isFirst i then k0_pay1 else xs)

theorem step_first_diag {i : grid0.Coords} (h1 : isFirst i) (h2 : onDiag i) (x0 : Vec F S2048x128 .bf16) (x1 : Vec F S1024x128 .bf16) (xs : Vec F S2048x1 .f32) :
    step i x0 x1 xs = k0_pay4 i x0 x1 (k0_pay1 (F := F)) := by unfold step; rw [if_pos h2, if_pos h1]
theorem step_first_off {i : grid0.Coords} (h1 : isFirst i) (h2 : ¬onDiag i) (x0 : Vec F S2048x128 .bf16) (x1 : Vec F S1024x128 .bf16) (xs : Vec F S2048x1 .f32) :
    step i x0 x1 xs = k0_pay5 x0 x1 (k0_pay1 (F := F)) := by unfold step; rw [if_neg h2, if_pos h1]
theorem step_mid_diag {i : grid0.Coords} (h1 : ¬isFirst i) (h2 : onDiag i) (x0 : Vec F S2048x128 .bf16) (x1 : Vec F S1024x128 .bf16) (xs : Vec F S2048x1 .f32) :
    step i x0 x1 xs = k0_pay4 i x0 x1 xs := by unfold step; rw [if_pos h2, if_neg h1]
theorem step_mid_off {i : grid0.Coords} (h1 : ¬isFirst i) (h2 : ¬onDiag i) (x0 : Vec F S2048x128 .bf16) (x1 : Vec F S1024x128 .bf16) (xs : Vec F S2048x1 .f32) :
    step i x0 x1 xs = k0_pay5 x0 x1 xs := by unfold step; rw [if_neg h2, if_neg h1]

/-- What the scratch holds after the body at position `n`. -/
def accAt (c : Dev nD) : (n : ℕ) → n < cfg0.N → Vec F S2048x1 .f32
  | 0, h => step (grid0.coords ⟨0, h⟩) (iblk m c 0 ⟨0, h⟩) (iblk m c 1 ⟨0, h⟩) (k0_pay1 (F := F))
  | n + 1, h => step (grid0.coords ⟨n + 1, h⟩) (iblk m c 0 ⟨n + 1, h⟩) (iblk m c 1 ⟨n + 1, h⟩) (accAt c n (Nat.lt_of_succ_lt h))

theorem accAt_zero (c : Dev nD) (t : Fin cfg0.N) (hz : t.val = 0) :
    accAt m c t.val t.isLt = step (grid0.coords t) (iblk m c 0 t) (iblk m c 1 t) (k0_pay1 (F := F)) := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt = step (grid0.coords t) (iblk m c 0 t) (iblk m c 1 t)
      (accAt m c (t.val - 1) (Nat.lt_of_le_of_lt (Nat.sub_le _ _) t.isLt)) := by
  obtain ⟨n, hn⟩ := t
  cases n with
  | zero => exact absurd rfl hz
  | succ n => rfl

/-- The region's invariant before position `n`: at the start the scratch at anything; afterwards at what the point
    before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The arrays as the region finds them; after the body each input's buffer at its block and the output's at the
    running sum; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any point: the inputs' buffers hold their blocks; the point's conditions select the run; the invariant
    hands the body the scratch at what the point before left (at anything at the grid's first point, which resets
    it) and takes it back at this point's running sum; the output's buffer is handed back as found unless the point is
    a row block's last, where it holds the running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases hz : t.val = 0
  · by_cases h1 : isFirst (grid0.coords t)
    · -- first column block
      by_cases h2 : onDiag (grid0.coords t)
      · have h3 : ¬offDiag (grid0.coords t) := fun h => ((off_iff t).mp h) h2
        by_cases h4 : isLast (grid0.coords t)
        · exfalso; exact not_first_last t h1 h4
        · rw [Dat.leavesExact_idle (dats m 0 c) 2 t (idle_of_not_last t h4) (noflush_of_not_last t h4)]
          rw [accAt_zero m c t hz, step_first_diag h1 h2, PhiS_castSucc m c t, PhiS_zero m c _ _ hz, PhiA_eq]
          iintro ⟨⟨⟨%xs, HS⟩, Hg⟩, Ho, ⟨%d0, H0⟩, ⟨%d1, H1⟩, ⟨%d2, H2⟩⟩
          iapply (run_first_diag c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
      · have h3 : offDiag (grid0.coords t) := (off_iff t).mpr h2
        by_cases h4 : isLast (grid0.coords t)
        · exfalso; exact not_first_last t h1 h4
        · rw [Dat.leavesExact_idle (dats m 0 c) 2 t (idle_of_not_last t h4) (noflush_of_not_last t h4)]
          rw [accAt_zero m c t hz, step_first_off h1 h2, PhiS_castSucc m c t, PhiS_zero m c _ _ hz, PhiA_eq]
          iintro ⟨⟨⟨%xs, HS⟩, Hg⟩, Ho, ⟨%d0, H0⟩, ⟨%d1, H1⟩, ⟨%d2, H2⟩⟩
          iapply (run_first_off c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
    · -- not the first column block
      exfalso; exact h1 (first_of_zero t hz)
  · by_cases h1 : isFirst (grid0.coords t)
    · -- first column block
      by_cases h2 : onDiag (grid0.coords t)
      · have h3 : ¬offDiag (grid0.coords t) := fun h => ((off_iff t).mp h) h2
        by_cases h4 : isLast (grid0.coords t)
        · exfalso; exact not_first_last t h1 h4
        · rw [Dat.leavesExact_idle (dats m 0 c) 2 t (idle_of_not_last t h4) (noflush_of_not_last t h4)]
          rw [accAt_pos m c t hz, step_first_diag h1 h2, PhiS_castSucc m c t, PhiS_pos m c _ _ hz]
          iintro ⟨⟨HS, Hg⟩, Ho, ⟨%d0, H0⟩, ⟨%d1, H1⟩, ⟨%d2, H2⟩⟩
          iapply (run_first_diag c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
      · have h3 : offDiag (grid0.coords t) := (off_iff t).mpr h2
        by_cases h4 : isLast (grid0.coords t)
        · exfalso; exact not_first_last t h1 h4
        · rw [Dat.leavesExact_idle (dats m 0 c) 2 t (idle_of_not_last t h4) (noflush_of_not_last t h4)]
          rw [accAt_pos m c t hz, step_first_off h1 h2, PhiS_castSucc m c t, PhiS_pos m c _ _ hz]
          iintro ⟨⟨HS, Hg⟩, Ho, ⟨%d0, H0⟩, ⟨%d1, H1⟩, ⟨%d2, H2⟩⟩
          iapply (run_first_off c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
    · -- not the first column block
      by_cases h2 : onDiag (grid0.coords t)
      · have h3 : ¬offDiag (grid0.coords t) := fun h => ((off_iff t).mp h) h2
        by_cases h4 : isLast (grid0.coords t)
        · rw [show (dats m 0 c).leavesExact 2 t = owns (c : Thread nD τ) (ms2 t) fullShare ((dats m 0 c).after 2 t) from by
                  unfold Dat.leavesExact; rw [live_of_last t h4], after2]
          rw [accAt_pos m c t hz, step_mid_diag h1 h2, PhiS_castSucc m c t, PhiS_pos m c _ _ hz]
          iintro ⟨⟨HS, Hg⟩, Ho, ⟨%d0, H0⟩, ⟨%d1, H1⟩, ⟨%d2, H2⟩⟩
          iapply (run_last_diag c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexact H2
        · rw [Dat.leavesExact_idle (dats m 0 c) 2 t (idle_of_not_last t h4) (noflush_of_not_last t h4)]
          rw [accAt_pos m c t hz, step_mid_diag h1 h2, PhiS_castSucc m c t, PhiS_pos m c _ _ hz]
          iintro ⟨⟨HS, Hg⟩, Ho, ⟨%d0, H0⟩, ⟨%d1, H1⟩, ⟨%d2, H2⟩⟩
          iapply (run_mid_diag c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2
      · have h3 : offDiag (grid0.coords t) := (off_iff t).mpr h2
        by_cases h4 : isLast (grid0.coords t)
        · rw [show (dats m 0 c).leavesExact 2 t = owns (c : Thread nD τ) (ms2 t) fullShare ((dats m 0 c).after 2 t) from by
                  unfold Dat.leavesExact; rw [live_of_last t h4], after2]
          rw [accAt_pos m c t hz, step_mid_off h1 h2, PhiS_castSucc m c t, PhiS_pos m c _ _ hz]
          iintro ⟨⟨HS, Hg⟩, Ho, ⟨%d0, H0⟩, ⟨%d1, H1⟩, ⟨%d2, H2⟩⟩
          iapply (run_last_off c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexact H2
        · rw [Dat.leavesExact_idle (dats m 0 c) 2 t (idle_of_not_last t h4) (noflush_of_not_last t h4)]
          rw [accAt_pos m c t hz, step_mid_off h1 h2, PhiS_castSucc m c t, PhiS_pos m c _ _ hz]
          iintro ⟨⟨HS, Hg⟩, Ho, ⟨%d0, H0⟩, ⟨%d1, H1⟩, ⟨%d2, H2⟩⟩
          iapply (run_mid_off c (grid0.coords t) (ms0 t) (hs0 t) (ms1 t) (hs1 t) (ms2 t) (hs2 t) scM (Memref.isWhole_whole _) h1 h2 h3 h4 (iblk m c 0 t) (iblk m c 1 t) _ _ Set.univ _)
          isplitl [H0]
          · iexact H0
          isplitl [H1]
          · iexact H1
          isplitl [H2]
          · iexact H2
          isplitl [HS]
          · iexact HS
          iintro ⟨H0, H1, H2, HS⟩
          isplitl [HS Hg]
          · isplitl [HS]
            · iexact HS
            iexact Hg
          isplitl [Ho]
          · iexact Ho
          isplitl [H0]
          · iexact H0
          isplitl [H1]
          · iexact H1
          iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

/-! ## The run -/

set_option backward.isDefEq.respectTransparency.types false in
/-- Every weakly fair execution of the whole program terminates without a fault, each array of the pipeline ending at
    what the library computes from the proof data and every other buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Blocks.lean ====
/-
  The grid's points and the windows' blocks.

  Point `t` of the 128 is row block `t / 16` against column block `t % 16`. The first window's block at `t` is rows
  `2048 * (t / 16) ..` of its array, the second window's rows `1024 * (t % 16) ..` of its array, the output window's
  rows `2048 * (t / 16) ..` of the result column. The body's conditions, in closed form: first column block
  `t % 16 = 0`, last `t % 16 = 15`, on the diagonal when `t % 16` is `2 * (t / 16)` or one more.
-/
import proofs.«113570_j12652973654546_2_alg».proof.Proof.BodyI
import Idealize.ShloMosaic.Lib.Pipeline.Value
import Idealize.ShloMosaic.Lib.ValueIdx

set_option maxRecDepth 16384

noncomputable section

namespace Cert.KernelIdeal.Sum

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable {F : FTy → Type} [FloatOps F]
variable (m : (ℓ : Loc nD τ sig) → Buf (Elt F) ℓ)

/-! ## Over the grid -/

theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)
theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index1 : ∀ t : Fin cfg0.N, win0_1.index t 0 = t.val % 16 ∧ win0_1.index t 1 = 0 :=
  (by decide +kernel : ∀ t : Fin grid0.N, win0_1.index t 0 = t.val % 16 ∧ win0_1.index t 1 = 0)
theorem index2 : ∀ t : Fin cfg0.N, win0_2.index t 0 = t.val / 16 ∧ win0_2.index t 1 = 0 :=
  (by decide +kernel : ∀ t : Fin grid0.N, win0_2.index t 0 = t.val / 16 ∧ win0_2.index t 1 = 0)
theorem isFirst_iff : ∀ t : Fin cfg0.N, isFirst (grid0.coords t) ↔ t.val % 16 = 0 :=
  (by decide +kernel : ∀ t : Fin grid0.N, isFirst (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)
theorem onDiag_iff : ∀ t : Fin cfg0.N, onDiag (grid0.coords t) ↔ (2 * (t.val / 16) ≤ t.val % 16 ∧ t.val % 16 ≤ 2 * (t.val / 16) + 1) :=
  (by decide +kernel : ∀ t : Fin grid0.N, onDiag (grid0.coords t) ↔ (2 * (t.val / 16) ≤ t.val % 16 ∧ t.val % 16 ≤ 2 * (t.val / 16) + 1))

/-- Row `p` of row block `n / 16`, as a row of the 16384. -/
def rowOf (n : ℕ) (h : n < cfg0.N) (p : Fin 2048) : Fin 16384 :=
  ⟨2048 * (n / 16) + p.val, by have hN : cfg0.N = 128 := N_0; have := p.isLt; omega⟩

/-- Row `q` of column block `n % 16`, as a row of the 16384. -/
def colOf (n : ℕ) (q : Fin 1024) : Fin 16384 :=
  ⟨1024 * (n % 16) + q.val, by have := q.isLt; omega⟩

/-! ## The input blocks -/

/-- The first window's block at a point, read at an entry. -/
theorem iblk0_apply (c : Dev nD) (t : Fin cfg0.N) (p : Fin 2048) (d : Fin 128) :
    (iblk m c 0 t : Vec F S2048x128 .bf16) (ix2 p d) = V m c main_v16 (ix2 (rowOf t.val t.isLt p) d) := by
  unfold iblk
  rw [View.read_apply]
  show V m c main_v16 _ = V m c main_v16 _
  congr 1
  funext a
  apply Fin.ext
  match a with
  | ⟨0, _⟩ => show win0_0.index t 0 * 2048 + 1 * p.val = 2048 * (t.val / 16) + p.val; rw [(index0 t).1]; omega
  | ⟨1, _⟩ => show win0_0.index t 1 * 128 + 1 * d.val = d.val; rw [(index0 t).2]; omega

/-- The second window's block at a point, read at an entry. -/
theorem iblk1_apply (c : Dev nD) (t : Fin cfg0.N) (q : Fin 1024) (d : Fin 128) :
    (iblk m c 1 t : Vec F S1024x128 .bf16) (ix2 q d) = V m c main_v17 (ix2 (colOf t.val q) d) := by
  unfold iblk
  rw [View.read_apply]
  show V m c main_v17 _ = V m c main_v17 _
  congr 1
  funext a
  apply Fin.ext
  match a with
  | ⟨0, _⟩ => show win0_1.index t 0 * 1024 + 1 * q.val = 1024 * (t.val % 16) + q.val; rw [(index1 t).1]; omega
  | ⟨1, _⟩ => show win0_1.index t 1 * 128 + 1 * d.val = d.val; rw [(index1 t).2]; omega

end Cert.KernelIdeal.Sum

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Payloads.lean ====
/-
  The body's payloads read at an entry, on the extended reals.

  At a grid point the body sees a block `x0` of 2048 rows and a block `x1` of 1024 rows, both 128 wide. Its product
  contracts the two blocks' last axes, so entry (p, q) of the exponentials is the exponential of the inner product of
  row p of the first block with row q of the second. A row's sum over the 1024 columns is kept as a column; off the
  diagonal it is added to the running sum, on the diagonal the entries whose global row and column numbers coincide
  are summed separately and subtracted first.
-/
import proofs.«113570_j12652973654546_2_alg».proof.Proof.Gen.KernelIdeal.Skeleton
import proofs.«113570_j12652973654546_2_alg».proof.Proof.LibDotsNT
import proofs.«113570_j12652973654546_2_alg».proof.Proof.LibKeepdims

set_option maxRecDepth 16384

noncomputable section

open scoped BigOperators

namespace Cert.KernelIdeal.Payloads

open Idealize.ShloMosaic Idealize.ShloMosaic.ValueIdx Cert.KernelIdeal Cert.KernelIdeal.Gen

/-- The exponential of the inner product of row `p` of the first block with row `q` of the second. -/
def expDot (x0 : Vec Ideal S2048x128 .bf16) (x1 : Vec Ideal S1024x128 .bf16) (p : Fin 2048) (q : Fin 1024) : EReal :=
  Ideal.exp (∑ k : Fin 128, x0 (ix2 p k) * x1 (ix2 q k))

/-- The reset value is zero everywhere. -/
theorem pay1_apply (j : S2048x1.Idx) : k0_pay1 (F := Ideal) j = 0 := by
  unfold k0_pay1
  refine (congrFun (shapeCast_self _ _) j).trans ?_
  exact Ideal.ofBits_zero_f32

/-- An entry of the block of exponentials. -/
theorem pay2_apply (x0 : Vec Ideal S2048x128 .bf16) (x1 : Vec Ideal S1024x128 .bf16) (p : Fin 2048) (q : Fin 1024) :
    k0_pay2 x0 x1 (ix2 p q) = expDot x0 x1 p q := by
  unfold k0_pay2 expDot
  have e0 : shapeCast S2048x128 x0 shapeCasts_S2048x128_S2048x128 = x0 := shapeCast_self _ _
  have e1 : shapeCast S1024x128 x1 shapeCasts_S1024x128_S1024x128 = x1 := shapeCast_self _ _
  rw [e0, e1]
  exact congrArg Ideal.exp (Cert.LibDotsNT.nt_matmul_zero_apply (M := 2048) (K := 128) (N := 1024)
    dot_S2048x128_S1024x128_S2048x1024_1_1_0_0_n_n rfl rfl rfl rfl rfl rfl none x0 x1 p q)

/-- A row's sum of exponentials, kept as a column. -/
theorem pay3_apply (x0 : Vec Ideal S2048x128 .bf16) (x1 : Vec Ideal S1024x128 .bf16) (p : Fin 2048) (u : Fin 1) :
    k0_pay3 x0 x1 (ix2 p u) = ∑ q : Fin 1024, expDot x0 x1 p q := by
  unfold k0_pay3
  refine (Cert.LibKeepdims.shapeCast_a_a1_apply _ shapeCasts_S2048_S2048x1 p u).trans ?_
  refine (Cert.LibKeepdims.rowSum_apply (k0_pay2 x0 x1) reduces_S2048x1024_S2048 (.inl rfl) rfl p).trans ?_
  exact Finset.sum_congr rfl fun q _ => pay2_apply x0 x1 p q

/-- Off the diagonal the row's sum is added to the running sum. -/
theorem pay5_apply (x0 : Vec Ideal S2048x128 .bf16) (x1 : Vec Ideal S1024x128 .bf16) (xs : Vec Ideal S2048x1 .f32)
    (p : Fin 2048) (u : Fin 1) :
    k0_pay5 x0 x1 xs (ix2 p u) = xs (ix2 p u) + ∑ q : Fin 1024, expDot x0 x1 p q := by
  unfold k0_pay5
  refine (congrFun (shapeCast_self _ _) (ix2 p u)).trans ?_
  exact congrArg (fun z => xs (ix2 p u) + z) (pay3_apply x0 x1 p u)

/-- The global row and column numbers of an entry agree as 32-bit words exactly when they agree as numbers: both are far
    below 2^32. -/
theorem diag_word_iff (i0 i1 p q : ℕ) (h0 : i0 < 8) (h1 : i1 < 16) (hp : p < 2048) (hq : q < 1024) :
    IntOp.cmpi .eq (IntOp.addi (IntOp.muli (BitVec.ofNat 32 i0) 2048#32) (BitVec.ofNat 32 p))
        (IntOp.addi (IntOp.muli (BitVec.ofNat 32 i1) 1024#32) (BitVec.ofNat 32 q)) = (1 : BitVec 1)
      ↔ 2048 * i0 + p = 1024 * i1 + q := by
  have e1 : IntOp.addi (IntOp.muli (BitVec.ofNat 32 i0) 2048#32) (BitVec.ofNat 32 p) = BitVec.ofNat 32 (2048 * i0 + p) := by
    unfold IntOp.addi IntOp.muli
    apply BitVec.eq_of_toNat_eq
    simp only [BitVec.toNat_add, BitVec.toNat_mul, BitVec.toNat_ofNat]
    omega
  have e2 : IntOp.addi (IntOp.muli (BitVec.ofNat 32 i1) 1024#32) (BitVec.ofNat 32 q) = BitVec.ofNat 32 (1024 * i1 + q) := by
    unfold IntOp.addi IntOp.muli
    apply BitVec.eq_of_toNat_eq
    simp only [BitVec.toNat_add, BitVec.toNat_mul, BitVec.toNat_ofNat]
    omega
  rw [e1, e2]
  show BitVec.ofBool (BitVec.ofNat 32 (2048 * i0 + p) == BitVec.ofNat 32 (1024 * i1 + q)) = 1 ↔ _
  constructor
  · intro h
    cases hb : (BitVec.ofNat 32 (2048 * i0 + p) == BitVec.ofNat 32 (1024 * i1 + q))
    · rw [hb] at h
      exact absurd h (by decide)
    · have he := eq_of_beq hb
      have := congrArg BitVec.toNat he
      simp only [BitVec.toNat_ofNat] at this
      omega
  · intro h
    rw [h, beq_self_eq_true]
    rfl

/-- On the diagonal the row's own entry, where this column block holds it, is taken out of the row's sum before the sum
    is added to the running sum. -/
theorem pay4_apply (i : grid0.Coords) (x0 : Vec Ideal S2048x128 .bf16) (x1 : Vec Ideal S1024x128 .bf16)
    (xs : Vec Ideal S2048x1 .f32) (p : Fin 2048) (u : Fin 1) :
    k0_pay4 i x0 x1 xs (ix2 p u) = xs (ix2 p u) + ((∑ q : Fin 1024, expDot x0 x1 p q)
      - ∑ q : Fin 1024, (if 2048 * (i 0).val + p.val = 1024 * (i 1).val + q.val then expDot x0 x1 p q else 0)) := by
  unfold k0_pay4
  refine (congrFun (shapeCast_self _ _) (ix2 p u)).trans ?_
  refine congrArg (fun z => xs (ix2 p u) + z) ?_
  refine congrArg₂ (fun a b : EReal => a - b) (pay3_apply x0 x1 p u) ?_
  refine (Cert.LibKeepdims.shapeCast_a_a1_apply _ shapeCasts_S2048_S2048x1 p u).trans ?_
  refine (Cert.LibKeepdims.rowSum_apply _ reduces_S2048x1024_S2048 (.inl rfl) rfl p).trans ?_
  refine Finset.sum_congr rfl fun q _ => ?_
  have hi0 : (i 0).val < 8 := (i 0).isLt
  have hi1 : (i 1).val < 16 := (i 1).isLt
  have hr : iota .tc S2048x1024 32 [0] iota_S2048x1024_d0_w32 (ix2 p q) = BitVec.ofNat 32 p.val :=
    iota_single_apply .tc S2048x1024 32 0 iota_S2048x1024_d0_w32 (ix2 p q)
  have hc : iota .tc S2048x1024 32 [1] iota_S2048x1024_d1_w32 (ix2 p q) = BitVec.ofNat 32 q.val :=
    iota_single_apply .tc S2048x1024 32 1 iota_S2048x1024_d1_w32 (ix2 p q)
  show Scalar.select (IntOp.cmpi .eq
      (IntOp.addi (IntOp.muli (BitVec.ofNat 32 (i 0).val) 2048#32) (iota .tc S2048x1024 32 [0] iota_S2048x1024_d0_w32 (ix2 p q)))
      (IntOp.addi (IntOp.muli (BitVec.ofNat 32 (i 1).val) 1024#32) (iota .tc S2048x1024 32 [1] iota_S2048x1024_d1_w32 (ix2 p q))))
    (k0_pay2 x0 x1 (ix2 p q)) (Ideal.ofBits .f32 0x00000000#32) = _
  rw [hr, hc, pay2_apply, Ideal.ofBits_zero_f32]
  unfold Scalar.select
  by_cases hd : 2048 * (i 0).val + p.val = 1024 * (i 1).val + q.val
  · rw [if_pos hd, if_pos ((diag_word_iff _ _ _ _ hi0 hi1 p.isLt q.isLt).mpr hd)]
  · rw [if_neg hd, if_neg (fun h => hd ((diag_word_iff _ _ _ _ hi0 hi1 p.isLt q.isLt).mp h))]

end Cert.KernelIdeal.Payloads

end
-- ==== Proof.Spec.lean ====
/-
  The contrastive loss both programs compute, as two functions of the argument arrays over the extended reals, entry by
  entry and over explicit coordinates. Rows are scaled to unit length (the length bounded below by a small constant), the
  two arrays are stacked into 16384 rows, and for every row the exponentials of twice its inner products with all OTHER
  rows are summed; the loss is the mean over the rows of the logarithm of that sum minus twice the inner product with the
  row's partner (the row 8192 places away). One program forms the sum of exponentials sixteen column blocks of 1024 at a
  time, subtracting the row's own entry from the block that holds it, and scales a factor of the inner product by two
  before the product; the other divides the inner product by one half, masks the row's own entry to zero before one whole
  sum, and takes minus the logarithm of a quotient. Stated here only; that the two agree on real entries is `Algebra`.
-/
import Idealize.ShloMosaic.PureOps.Ideal

noncomputable section

open scoped BigOperators

namespace Cert.Spec

open Idealize.ShloMosaic

/-- The lower bound of a row's length: the f32 nearest 1e-8. -/
def eps : EReal := Ideal.ofBits .f32 0x322BCC77#32
/-- One half. -/
def half : EReal := Ideal.ofBits .f32 0x3F000000#32
/-- Two. -/
def two : EReal := Ideal.ofBits .f32 0x40000000#32
/-- The number of rows, 16384. -/
def cnt : EReal := Ideal.ofBits .f32 0x46800000#32

/-- Every entry is a real number. -/
def AllReal {n k : ℕ} (A : Fin n → Fin k → EReal) : Prop := ∀ r d, ∃ x : ℝ, A r d = (x : EReal)

/-- A row's Euclidean length, bounded below by `eps`. -/
def rowNorm {n : ℕ} (A : Fin n → Fin 128 → EReal) (r : Fin n) : EReal :=
  max (Ideal.sqrt (∑ d : Fin 128, A r d * A r d)) eps

/-- The rows scaled to unit length. -/
def unit {n : ℕ} (A : Fin n → Fin 128 → EReal) (r : Fin n) (d : Fin 128) : EReal :=
  Ideal.div (A r d) (rowNorm A r)

/-- Two arrays of 8192 rows stacked into one of 16384. -/
def stack (X Y : Fin 8192 → Fin 128 → EReal) (r : Fin 16384) (d : Fin 128) : EReal :=
  if h : r.val < 8192 then X ⟨r.val, h⟩ d else Y ⟨r.val - 8192, by omega⟩ d

/-- Column `c` of column block `j` (for `j < 16` this is `1024 * j + c`). -/
def col (j : ℕ) (c : Fin 1024) : Fin 16384 := ⟨(1024 * j + c.val) % 16384, Nat.mod_lt _ (by norm_num)⟩

/-! ## Block by block -/

/-- The inner product of row `r`, scaled by two, with row `c`. -/
def simK (Z : Fin 16384 → Fin 128 → EReal) (r c : Fin 16384) : EReal := ∑ d : Fin 128, (Z r d * two) * Z c d

/-- Whether column block `j` meets the diagonal on row `r`: the two blocks of 1024 columns across the row's block of 2048 rows. -/
def onDiag (r : Fin 16384) (j : ℕ) : Prop := 2 * (r.val / 2048) ≤ j ∧ j ≤ 2 * (r.val / 2048) + 1

instance (r : Fin 16384) (j : ℕ) : Decidable (onDiag r j) := by unfold onDiag; infer_instance

/-- Column block `j`'s share of row `r`'s sum: the block's exponentials summed, less the row's own entry where the block
    meets the diagonal. -/
def tileK (Z : Fin 16384 → Fin 128 → EReal) (r : Fin 16384) (j : ℕ) : EReal :=
  if onDiag r j then
    (∑ c : Fin 1024, Ideal.exp (simK Z r (col j c)))
      - ∑ c : Fin 1024, (if r = col j c then Ideal.exp (simK Z r (col j c)) else 0)
  else ∑ c : Fin 1024, Ideal.exp (simK Z r (col j c))

/-- The running sum after the first `n` column blocks, from zero. -/
def accK (Z : Fin 16384 → Fin 128 → EReal) (r : Fin 16384) : ℕ → EReal
  | 0 => 0
  | n + 1 => accK Z r n + tileK Z r n

/-- Row `r`'s inner product with its partner, from the two scaled halves. -/
def posK (U W : Fin 8192 → Fin 128 → EReal) (r : Fin 16384) : EReal :=
  ∑ d : Fin 128, U ⟨r.val % 8192, Nat.mod_lt _ (by norm_num)⟩ d * W ⟨r.val % 8192, Nat.mod_lt _ (by norm_num)⟩ d

/-- The loss from the two scaled halves, block by block. -/
def lossK (U W : Fin 8192 → Fin 128 → EReal) : EReal :=
  Ideal.div (∑ r : Fin 16384, (Ideal.log (accK (stack U W) r 16) - Ideal.div (posK U W r) half)) cnt

/-- The loss of two argument arrays, each scaled then stacked, block by block. -/
def kernelLoss (X Y : Fin 8192 → Fin 128 → EReal) : EReal := lossK (unit X) (unit Y)

/-! ## All at once -/

/-- The inner product of rows `r` and `c`. -/
def simR (Z : Fin 16384 → Fin 128 → EReal) (r c : Fin 16384) : EReal := ∑ d : Fin 128, Z r d * Z c d

/-- Row `r`'s sum of exponentials over the other rows. -/
def denR (Z : Fin 16384 → Fin 128 → EReal) (r : Fin 16384) : EReal :=
  ∑ c : Fin 16384, (if r = c then 0 else Ideal.exp (Ideal.div (simR Z r c) half))

/-- Row `r`'s partner: the row 8192 places away. -/
def partner (r : Fin 16384) : Fin 16384 := ⟨(r.val + 8192) % 16384, Nat.mod_lt _ (by norm_num)⟩

/-- The loss of the stacked, scaled rows, all at once. -/
def lossR (Z : Fin 16384 → Fin 128 → EReal) : EReal :=
  Ideal.div (∑ r : Fin 16384,
    -(Ideal.log (Ideal.div (Ideal.exp (Ideal.div (simR Z r (partner r)) half)) (denR Z r)))) cnt

/-- The loss of two argument arrays, stacked then scaled, all at once. -/
def referenceLoss (X Y : Fin 8192 → Fin 128 → EReal) : EReal := lossR (unit (stack X Y))

end Cert.Spec

end
-- ==== Proof.Sum.lean ====
/-
  The running sum is the spec's.

  With `Z` the stacked scaled rows, the first window's array holds `Z` times two and the second's holds `Z`. At point `t`
  the entry (p, q) of the block of exponentials is then the exponential of twice the inner product of row
  `2048 * (t / 16) + p` of `Z` with row `1024 * (t % 16) + q`; the row's share of the column block is what the spec calls
  the tile; and by induction over the points of a row block the scratch holds, after column block `j`, the spec's
  running sum of the first `j + 1` tiles.
-/
import proofs.«113570_j12652973654546_2_alg».proof.Proof.Blocks
import proofs.«113570_j12652973654546_2_alg».proof.Proof.Payloads
import proofs.«113570_j12652973654546_2_alg».proof.Proof.Spec

set_option maxRecDepth 16384

noncomputable section

open scoped BigOperators

namespace Cert.KernelIdeal.Sum

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Payloads

variable (m : (ℓ : Loc nD τ sig) → Buf (Elt Ideal) ℓ) (c : Dev nD)
variable (Z : Fin 16384 → Fin 128 → EReal)
variable (hL : (V m c main_v16 : S16384x128.Idx → EReal) = fun i => Z (i 0) (i 1) * Cert.Spec.two)
variable (hR : (V m c main_v17 : S16384x128.Idx → EReal) = fun i => Z (i 0) (i 1))

theorem rowOf_div (n : ℕ) (h : n < cfg0.N) (p : Fin 2048) : (rowOf n h p).val / 2048 = n / 16 := by
  unfold rowOf; dsimp only; have := p.isLt; omega

theorem col_eq (n : ℕ) (q : Fin 1024) : Cert.Spec.col (n % 16) q = colOf n q := by
  apply Fin.ext
  unfold Cert.Spec.col colOf
  dsimp only
  have := q.isLt
  omega

include hL hR in
/-- An entry of the block of exponentials at a point, in the spec's words. -/
theorem expDot_blocks (t : Fin cfg0.N) (p : Fin 2048) (q : Fin 1024) :
    expDot (iblk m c 0 t) (iblk m c 1 t) p q
      = Ideal.exp (Cert.Spec.simK Z (rowOf t.val t.isLt p) (Cert.Spec.col (t.val % 16) q)) := by
  unfold expDot Cert.Spec.simK
  rw [col_eq]
  refine congrArg Ideal.exp (Finset.sum_congr rfl fun k _ => ?_)
  rw [iblk0_apply (F := Ideal) m c t p k, iblk1_apply (F := Ideal) m c t q k, hL, hR]
  rfl

theorem spec_onDiag_iff (t : Fin cfg0.N) (p : Fin 2048) :
    Cert.Spec.onDiag (rowOf t.val t.isLt p) (t.val % 16) ↔ onDiag (grid0.coords t) := by
  unfold Cert.Spec.onDiag
  rw [rowOf_div, onDiag_iff t]

include hL hR in
/-- Off the diagonal a row's share of the column block is the block's exponentials summed. -/
theorem tile_off (t : Fin cfg0.N) (p : Fin 2048) (h2 : ¬onDiag (grid0.coords t)) :
    (∑ q : Fin 1024, expDot (iblk m c 0 t) (iblk m c 1 t) p q) = Cert.Spec.tileK Z (rowOf t.val t.isLt p) (t.val % 16) := by
  unfold Cert.Spec.tileK
  rw [if_neg (fun h => h2 ((spec_onDiag_iff t p).mp h))]
  exact Finset.sum_congr rfl fun q _ => expDot_blocks m c Z hL hR t p q

include hL hR in
/-- On the diagonal the row's own entry is taken out. -/
theorem tile_diag (t : Fin cfg0.N) (p : Fin 2048) (h2 : onDiag (grid0.coords t)) :
    ((∑ q : Fin 1024, expDot (iblk m c 0 t) (iblk m c 1 t) p q)
      - ∑ q : Fin 1024, (if 2048 * (grid0.coords t 0).val + p.val = 1024 * (grid0.coords t 1).val + q.val
          then expDot (iblk m c 0 t) (iblk m c 1 t) p q else 0))
      = Cert.Spec.tileK Z (rowOf t.val t.isLt p) (t.val % 16) := by
  unfold Cert.Spec.tileK
  rw [if_pos ((spec_onDiag_iff t p).mpr h2)]
  refine congrArg₂ (fun a b : EReal => a - b) (Finset.sum_congr rfl fun q _ => expDot_blocks m c Z hL hR t p q)
    (Finset.sum_congr rfl fun q _ => ?_)
  have hiff : (2048 * (grid0.coords t 0).val + p.val = 1024 * (grid0.coords t 1).val + q.val)
      ↔ rowOf t.val t.isLt p = Cert.Spec.col (t.val % 16) q := by
    rw [col_eq, (coords_val t).1, (coords_val t).2]
    constructor
    · intro h; exact Fin.ext h
    · intro h; exact congrArg Fin.val h
  by_cases hd : 2048 * (grid0.coords t 0).val + p.val = 1024 * (grid0.coords t 1).val + q.val
  · rw [if_pos hd, if_pos (hiff.mp hd)]; exact expDot_blocks m c Z hL hR t p q
  · rw [if_neg hd, if_neg (fun h => hd (hiff.mpr h))]

include hL hR in
/-- One point: the running sum grows by the row's tile. -/
theorem step_at (t : Fin cfg0.N) (p : Fin 2048) (u : Fin 1) (xs : Vec Ideal S2048x1 .f32) (S : EReal)
    (hS : (if isFirst (grid0.coords t) then k0_pay1 (F := Ideal) else xs) (ix2 p u) = S) :
    step (grid0.coords t) (iblk m c 0 t) (iblk m c 1 t) xs (ix2 p u)
      = S + Cert.Spec.tileK Z (rowOf t.val t.isLt p) (t.val % 16) := by
  unfold step
  by_cases h2 : onDiag (grid0.coords t)
  · rw [if_pos h2, pay4_apply, hS]
    exact congrArg (fun z => S + z) (tile_diag m c Z hL hR t p h2)
  · rw [if_neg h2, pay5_apply, hS]
    exact congrArg (fun z => S + z) (tile_off m c Z hL hR t p h2)

include hL hR in
/-- After the point at position `n` the scratch holds, at row `p`, the spec's running sum of the first `n % 16 + 1` tiles
    of row `2048 * (n / 16) + p`. -/
theorem accAt_apply : ∀ (n : ℕ) (h : n < cfg0.N) (p : Fin 2048) (u : Fin 1),
    accAt m c n h (ix2 p u) = Cert.Spec.accK Z (rowOf n h p) (n % 16 + 1)
  | 0, h, p, u => by
    have hf : isFirst (grid0.coords ⟨0, h⟩) := first_of_zero ⟨0, h⟩ rfl
    show step (grid0.coords ⟨0, h⟩) (iblk m c 0 ⟨0, h⟩) (iblk m c 1 ⟨0, h⟩) (k0_pay1 (F := Ideal)) (ix2 p u) = _
    rw [step_at m c Z hL hR ⟨0, h⟩ p u _ 0 (by rw [if_pos hf]; exact pay1_apply _)]
    rfl
  | n + 1, h, p, u => by
    show step (grid0.coords ⟨n + 1, h⟩) (iblk m c 0 ⟨n + 1, h⟩) (iblk m c 1 ⟨n + 1, h⟩) (accAt m c n (Nat.lt_of_succ_lt h)) (ix2 p u) = _
    by_cases hf : (n + 1) % 16 = 0
    · have hF : isFirst (grid0.coords ⟨n + 1, h⟩) := (isFirst_iff ⟨n + 1, h⟩).mpr hf
      rw [step_at m c Z hL hR ⟨n + 1, h⟩ p u _ 0 (by rw [if_pos hF]; exact pay1_apply _)]
      show 0 + Cert.Spec.tileK Z _ ((n + 1) % 16) = Cert.Spec.accK Z _ ((n + 1) % 16 + 1)
      rw [hf]
      rfl
    · have hF : ¬isFirst (grid0.coords ⟨n + 1, h⟩) := fun hh => hf ((isFirst_iff ⟨n + 1, h⟩).mp hh)
      have hrow : rowOf n (Nat.lt_of_succ_lt h) p = rowOf (n + 1) h p := by
        apply Fin.ext; unfold rowOf; dsimp only; omega
      have hj : n % 16 + 1 = (n + 1) % 16 := by omega
      rw [step_at m c Z hL hR ⟨n + 1, h⟩ p u _ (Cert.Spec.accK Z (rowOf (n + 1) h p) ((n + 1) % 16))
        (by rw [if_neg hF, accAt_apply n (Nat.lt_of_succ_lt h) p u, hrow, hj])]
      rfl

end Cert.KernelIdeal.Sum

end
-- ==== Proof.LibColumnSum.lean ====
/-
  Reading a sum down the columns of a matrix, and a sum over the indices of a vector.

  A float sum along the first axis of an `[m, n]` array is an `[n]` vector; read at column `q` it is the sum over the
  `m` rows of the entries of that column: putting the summed coordinate `k` back into the reduced index `q` gives the
  entry `(k, q)`. A vector's indices are the functions from the one axis into `Fin n`; a sum over them is the sum over
  `Fin n` of the summand at the index with that coordinate.
-/
import Idealize.ShloMosaic.Lib.Pipeline.Value
import Idealize.ShloMosaic.Lib.ValueIdx
import Idealize.ShloMosaic.PureOps.Ideal.Laws

noncomputable section

open scoped BigOperators

namespace Cert.LibColumnSum

open Idealize.ShloMosaic Idealize.ShloMosaic.ValueIdx

/-- Putting the summed row number `k` back into the reduced index `q` gives the entry `(k, q)`. -/
theorem lift_rows {m n : ℕ} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- A float sum along the first axis from the zero pattern, read at column `q`, is the sum of that column's entries
    on the extended reals. -/
theorem colSum_apply {m n : ℕ} (src : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (q : Fin n) :
    multiReduction .add [0] (⟨1, ![n]⟩ : Shape) src 0x00000000#32 h hφ hacc (ix1 q) = ∑ k : Fin m, src (ix2 k q) := by
  refine (Ideal.multiReduction_add_single src 0x00000000#32 h hφ hacc (ix1 q)).trans ?_
  exact Finset.sum_congr rfl fun k _ => congrArg src (lift_rows h q k)

/-- The indices of an `[n]` vector are the numbers below `n`. -/
def idxEquiv1 {n : ℕ} : Fin n ≃ (⟨1, ![n]⟩ : Shape).Idx where
  toFun := ix1
  invFun j := j 0
  left_inv _ := rfl
  right_inv j := (eq_ix1 j).symm

/-- A sum over the indices of an `[n]` vector is the sum over `Fin n`. -/
theorem sum_idx1 {M : Type*} [AddCommMonoid M] {n : ℕ} (f : (⟨1, ![n]⟩ : Shape).Idx → M) :
    ∑ j : (⟨1, ![n]⟩ : Shape).Idx, f j = ∑ k : Fin n, f (ix1 k) :=
  (Equiv.sum_comp idxEquiv1 f).symm

end Cert.LibColumnSum

end
-- ==== Proof.Final.lean ====
/-
  The result column and the loss.

  Only a row block's last point writes the output window back; what it writes is the running sum of all sixteen tiles of
  each of the block's 2048 rows, so the eight write-backs tile the result column and row `r` of it ends at the spec's
  `accK Z r 16`. The host operations after the region then take its logarithm row by row, subtract the partner inner
  products divided by one half, sum the 16384 rows and divide by their number.
-/
import proofs.«113570_j12652973654546_2_alg».proof.Proof.Sum
import proofs.«113570_j12652973654546_2_alg».proof.Proof.LibColumnSum
import Idealize.ShloMosaic.Lib.StableHlo.Run
import Idealize.ShloMosaic.Lib.Tactic

set_option maxRecDepth 16384

noncomputable section

open scoped BigOperators

namespace Cert.KernelIdeal.Sum

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Body Cert.KernelIdeal.Payloads

variable (m : (ℓ : Loc nD τ sig) → Buf (Elt Ideal) ℓ) (ρ : Dev nD → PrngReg) (c : Dev nD)
variable (Z : Fin 16384 → Fin 128 → EReal)
variable (hL : (V m c main_v16 : S16384x128.Idx → EReal) = fun i => Z (i 0) (i 1) * Cert.Spec.two)
variable (hR : (V m c main_v17 : S16384x128.Idx → EReal) = fun i => Z (i 0) (i 1))
variable (posv : Fin 16384 → EReal)
variable (hP : (V m c main_v13 : S16384.Idx → EReal) = fun i => posv (i 0))

/-- The result column: row `r` holds the running sum of all sixteen tiles. -/
def result : Buf (Elt Ideal) ((c : Thread nD τ).loc main_v18) := fun i => Cert.Spec.accK Z (i 0) 16

include hL hR in
/-- At a row block's last point the scratch holds, row by row, the running sum of all sixteen tiles. -/
theorem acc_row (t : Fin cfg0.N) (h15 : t.val % 16 = 15) (y : S2048x1.Idx) :
    accAt m c t.val t.isLt y = Cert.Spec.accK Z (rowOf t.val t.isLt (y 0)) 16 := by
  obtain ⟨p, u, rfl⟩ : ∃ (p : Fin 2048) (u : Fin 1), y = ix2 p u := ⟨y 0, y 1, eq_ix2 y⟩
  rw [accAt_apply m c Z hL hR t.val t.isLt p u, h15]

include hL hR in
/-- What a row block's last point writes back is its block of the result column. -/
theorem flushed_eq (t : Fin cfg0.N) (hf : (cfg0.win 2).flush t = true) :
    (dats m 0 c).flushed 2 t = ((cfg0.win 2).blk t).view.read (Elt Ideal) (result c Z) := by
  show (cfg0.win 2).cut (grid0.coords t) ((dats m 0 c).after 2 t) = _
  rw [after2]
  have h15 : t.val % 16 = 15 := (flush0_2 t).mp hf
  funext j
  refine (acc_row m c Z hL hR t h15 j).trans ?_
  show Cert.Spec.accK Z (rowOf t.val t.isLt (j 0)) 16 = Cert.Spec.accK Z ((((cfg0.win 2).blk t).view.emb j) 0) 16
  refine congrArg (fun r => Cert.Spec.accK Z r 16) (Fin.ext ?_)
  show 2048 * (t.val / 16) + (j 0).val = win0_2.index t 0 * 2048 + 1 * (j 0).val
  rw [(index2 t).1]; omega

/-- A row of the result column is in a point's block when it is one of the block's 2048 rows. -/
theorem mem_blk (t : Fin cfg0.N) (i : S16384x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v18).slice (win0_2.rect t)).set ↔ _
  rw [View.set_slice_whole, Rect.mem_set_unit]
  exact Iff.rfl

/-- Every row is written back by the last point of its row block. -/
theorem cover (i : S16384x1.Idx) : ∃ t : Fin cfg0.N, (cfg0.win 2).flush t = true ∧ i ∈ ((cfg0.win 2).blk t).view.set := by
  have hi0 : (i 0).val < 16384 := (i 0).isLt
  have hi1 : (i 1).val < 1 := (i 1).isLt
  have hN : cfg0.N = 128 := N_0
  let t : Fin cfg0.N := ⟨16 * ((i 0).val / 2048) + 15, by omega⟩
  have ht : t.val = 16 * ((i 0).val / 2048) + 15 := rfl
  refine ⟨t, (flush0_2 t).mpr (by omega), ?_⟩
  rw [mem_blk]
  intro a
  match a with
  | ⟨0, _⟩ =>
    show win0_2.index t 0 * 2048 ≤ (i 0).val ∧ (i 0).val < win0_2.index t 0 * 2048 + 2048
    rw [(index2 t).1]; omega
  | ⟨1, _⟩ =>
    show win0_2.index t 1 * 1 ≤ (i 1).val ∧ (i 1).val < win0_2.index t 1 * 1 + 1
    rw [(index2 t).2]; omega

include hL hR in
/-- The result array after the run. -/
theorem final : (dats m 0 c).arrAt 2 cfg0.N = result c Z :=
  (dats m 0 c).arrAt_eq_of_cover 2 (result c Z) (flushed_eq m c Z hL hR) cover

include hL hR hP in
/-- The loss the host operations after the region leave. -/
theorem tail_eq : Pipeline.afterTail₀ cfgs (dats m) 0 (V0 m) [hostOps1] c main_v25
    = fun _ => Ideal.div (∑ r : Fin 16384, (Ideal.log (Cert.Spec.accK Z r 16) - Ideal.div (posv r) Cert.Spec.half)) Cert.Spec.cnt := by
  unfold Pipeline.afterTail₀
  show StableHlo.after hostOps1 _ (Proc.devRef .tc main_v25) = _
  after_results
  have e18 : Pipeline.withArrays (cfgs 0).spec c (V0 m c) (fun w => (dats m 0 c).arrAt w (cfgs 0).N) (Proc.devRef .tc main_v18) = result c Z :=
    (Pipeline.withArrays_arr spec0 launch0.win.arr_inj c _ _ 2).trans (final m c Z hL hR)
  have e13 : Pipeline.withArrays (cfgs 0).spec c (V0 m c) (fun w => (dats m 0 c).arrAt w (cfgs 0).N) (Proc.devRef .tc main_v13) = fun i => posv (i 0) :=
    (Pipeline.withArrays_of_ne _ c (V0 m c) _ main_v13 (by exact (by decide : ∀ w, Pipeline.arrRef spec0 w ≠ main_v13))).trans hP
  rw [e18, e13]
  funext i
  refine congrArg₂ Ideal.div ?_ rfl
  simp only [Host.reduceAdd, Ideal.hostReduceAdd_def]
  rw [Ideal.hostReduceAdd_total reducesTo_S16384_S_d0 (fun b => b.elim0) _ _ i]
  rw [show (constant (F := Ideal) S_ .f32 0x00000000#32) (Shape.Idx.first h_S_) = 0 from Ideal.ofBits_zero_f32, zero_add,
    Cert.LibColumnSum.sum_idx1]
  refine Finset.sum_congr rfl fun r _ => ?_
  refine congrArg₂ (fun a b : EReal => a - b) (congrArg Ideal.log ?_) (congrArg₂ Ideal.div rfl ?_)
  · show shapeCast S16384 (result c Z) shapeCasts_S16384x1_S16384 (ix1 r) = _
    refine (shapeCast_apply (result c Z) shapeCasts_S16384x1_S16384 (ix1 r) (ix2 r (0 : Fin 1)) ?_).trans rfl
    show ((⟨2, ![16384, 1]⟩ : Shape).rowMajor (ix2 r (0 : Fin 1))).val = ((⟨1, ![16384]⟩ : Shape).rowMajor (ix1 r)).val
    rw [Shape.rowMajor_val_two, Shape.rowMajor_val_one]
    show r.val * 1 + 0 = r.val
    omega
  · exact broadcastInDim_apply _ bcast_S_S16384 (constant (F := Ideal) S_ .f32 0x3F000000#32) (ix1 r) ix0 (fun a => a.elim0)

end Cert.KernelIdeal.Sum

end
-- ==== Proof.KernelPrefix.Terms.lean ====
/-
  The host operations before the kernel region, as functions of the two argument arrays over the extended reals, and
  what each reads at an entry. A row's length is the square root of the sum of its squares (a row sum from the zero
  word, kept as a column); the array is divided, entry by entry, by that column bounded below by a small constant and
  spread over the 128 columns; the two scaled arrays are stacked; and the row sums of their product, twice over, give
  every row's inner product with its partner. Each layout step (keeping a sum as a column, spreading a column or a
  scalar, stacking two pieces) reads ONE entry of its operand, found by the index's coordinates.
-/
import proofs.«113570_j12652973654546_2_alg».proof.Proof.Gen.KernelIdeal.Frame
import proofs.«113570_j12652973654546_2_alg».proof.Proof.Spec
import proofs.«113570_j12652973654546_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Prefix

open Idealize.ShloMosaic Idealize.ShloMosaic.TcCoe Idealize.ShloMosaic.Tactic Idealize.ShloMosaic.ValueIdx
open Idealize.SL Idealize.SL.RA Idealize.SL.BI
open Idealize.SL.BI.BIBase Idealize.SL.Sem
open scoped BigOperators
open Cert.KernelIdeal Cert.KernelIdeal.Gen

variable (m : (ℓ : Loc nD τ sig) → Buf (Elt Ideal) ℓ) (c : Dev nD)

/-- An [n,128] array as a function of its two coordinates. -/
def cur {n : ℕ} (A : (⟨2, ![n, 128]⟩ : Shape).Idx → EReal) : Fin n → Fin 128 → EReal := fun r d => A (ValueIdx.ix2 r d)

/-- The column of row lengths of an [8192,128] array, as the operations compose it: the square root of the row sums of
    the squares, from the zero word. -/
def normOf (A : FVec Ideal S8192x128 .f32) : FVec Ideal S8192x1 .f32 :=
  Host.sqrt (broadcastInDim S8192x1 ![0] bcast_S8192_S8192x1_0
    (Host.reduceAdd (mulf A A) (constant (F := Ideal) S_ .f32 0x00000000#32) reducesTo_S8192x128_S8192_d1 h_S_))

/-- The array with every row divided by its length bounded below, as the operations compose it. -/
def scaledOf (A : FVec Ideal S8192x128 .f32) : FVec Ideal S8192x128 .f32 :=
  Host.divf A (broadcastInDim S8192x128 ![0, 1] bcast_S8192x1_S8192x128_0_1
    (maximumf (normOf A) (broadcastInDim S8192x1 ![] bcast_S_S8192x1 (constant (F := Ideal) S_ .f32 0x322BCC77#32))))

/-- The two scaled arrays one above the other. -/
def stackedOf (A B : FVec Ideal S8192x128 .f32) : FVec Ideal S16384x128 .f32 :=
  concatenate S16384x128 0 [⟨S8192x128, scaledOf A⟩, ⟨S8192x128, scaledOf B⟩] concatenates_S8192x128_S8192x128_S16384x128_d0

/-- The row sums of the product of the two scaled arrays, from the zero word. -/
def dotOf (A B : FVec Ideal S8192x128 .f32) : FVec Ideal S8192 .f32 :=
  Host.reduceAdd (mulf (scaledOf A) (scaledOf B)) (constant (F := Ideal) S_ .f32 0x00000000#32) reducesTo_S8192x128_S8192_d1 h_S_

variable (A B : FVec Ideal S8192x128 .f32)

/-- A row sum from the zero word, read at row `r`: the sum over the row's 128 entries. -/
theorem rowSum_apply (x : FVec Ideal S8192x128 .f32) (r : Fin 8192) :
    Host.reduceAdd x (constant (F := Ideal) S_ .f32 0x00000000#32) reducesTo_S8192x128_S8192_d1 h_S_ (ix1 r)
      = ∑ d : Fin 128, x (ix2 r d) := by
  have h : S8192x128.Reduces [1] S8192 := by decide
  show Ideal.hostReduceAdd reducesTo_S8192x128_S8192_d1 x (Ideal.ofBits .f32 0x00000000#32) (ix1 r) = _
  rw [Ideal.hostReduceAdd_single reducesTo_S8192x128_S8192_d1 h, Ideal.ofBits_zero_f32, zero_add]
  exact Finset.sum_congr rfl fun k _ => congrArg x (Cert.LibKeepdims.lift_cols h r k)

/-- The column of row lengths read at row `r`: the square root of the sum of the row's squares. -/
theorem normOf_apply (r : Fin 8192) (u : Fin 1) :
    normOf A (ix2 r u) = Ideal.sqrt (∑ d : Fin 128, A (ix2 r d) * A (ix2 r d)) := by
  show Ideal.sqrt (broadcastInDim (s := S8192) S8192x1 ![0] bcast_S8192_S8192x1_0 _ (ix2 r u)) = _
  rw [broadcastInDim_apply (s := S8192) (t := S8192x1) ![0] bcast_S8192_S8192x1_0 _ (ix2 r u) (ix1 r) (fun a => by
    match a with
    | ⟨0, _⟩ => rfl), rowSum_apply]
  rfl

/-- The scaled array read at `(r, d)`: the entry over the row's length bounded below. -/
theorem scaledOf_apply (r : Fin 8192) (d : Fin 128) : scaledOf A (ix2 r d) = Cert.Spec.unit (cur A) r d := by
  show Ideal.div (A (ix2 r d)) (broadcastInDim (s := S8192x1) S8192x128 ![0, 1] bcast_S8192x1_S8192x128_0_1 _ (ix2 r d)) = _
  rw [broadcastInDim_apply (s := S8192x1) (t := S8192x128) ![0, 1] bcast_S8192x1_S8192x128_0_1 _ (ix2 r d) (ix2 r (0 : Fin 1)) (fun a => by
    match a with
    | ⟨0, _⟩ => rfl
    | ⟨1, _⟩ => rfl)]
  show Ideal.div (A (ix2 r d)) (max (normOf A (ix2 r 0)) (broadcastInDim (s := S_) S8192x1 ![] bcast_S_S8192x1 _ (ix2 r 0))) = _
  rw [normOf_apply, broadcastInDim_apply (s := S_) (t := S8192x1) ![] bcast_S_S8192x1 _ (ix2 r (0 : Fin 1)) ix0 (fun a => a.elim0)]
  rfl

/-- The two scaled arrays one above the other, read at `(p, q)`: the stack of the two unit-length arrays. -/
theorem stackedOf_apply (p : Fin 16384) (q : Fin 128) :
    stackedOf A B (ix2 p q) = Cert.Spec.stack (Cert.Spec.unit (cur A)) (Cert.Spec.unit (cur B)) p q := by
  by_cases hp : p.val < 8192
  · have e := concatenate_pair_apply_left (t := S16384x128) (s₁ := S8192x128) (s₂ := S8192x128) 0 (scaledOf A) (scaledOf B)
      concatenates_S8192x128_S8192x128_S16384x128_d0 (ix2 p q) rfl (ix2 (⟨p.val, hp⟩ : Fin 8192) q) (fun b => by
        match b with
        | ⟨0, _⟩ => rfl
        | ⟨1, _⟩ => rfl)
    show concatenate S16384x128 0 [⟨S8192x128, scaledOf A⟩, ⟨S8192x128, scaledOf B⟩] _ (ix2 p q) = _
    rw [e, scaledOf_apply, Cert.Spec.stack, dif_pos hp]
  · have hq : p.val - 8192 < 8192 := by have := p.isLt; omega
    have e := concatenate_pair_apply_right (t := S16384x128) (s₁ := S8192x128) (s₂ := S8192x128) 0 (scaledOf A) (scaledOf B)
      concatenates_S8192x128_S8192x128_S16384x128_d0 (ix2 p q) rfl rfl (ix2 (⟨p.val - 8192, hq⟩ : Fin 8192) q) (fun b hb => by
        have hb1 : b = (1 : Fin 2) := by
          have h0 : b.val ≠ 0 := fun h0 => hb (Fin.ext h0)
          have h2 : b.val < 2 := b.isLt
          exact Fin.ext (by show b.val = 1; omega)
        subst hb1; rfl) (by show p.val - 8192 + 8192 = p.val; omega)
    show concatenate S16384x128 0 [⟨S8192x128, scaledOf A⟩, ⟨S8192x128, scaledOf B⟩] _ (ix2 p q) = _
    rw [e, scaledOf_apply, Cert.Spec.stack, dif_neg hp]

/-- The row sums of the product of the scaled arrays, read at row `r`. -/
theorem dotOf_apply (r : Fin 8192) :
    dotOf A B (ix1 r) = ∑ d : Fin 128, Cert.Spec.unit (cur A) r d * Cert.Spec.unit (cur B) r d := by
  show Host.reduceAdd (mulf (scaledOf A) (scaledOf B)) _ reducesTo_S8192x128_S8192_d1 h_S_ (ix1 r) = _
  rw [rowSum_apply]
  refine Finset.sum_congr rfl fun d _ => ?_
  show scaledOf A (ix2 r d) * scaledOf B (ix2 r d) = _
  rw [scaledOf_apply, scaledOf_apply]

/-- The row sums twice over, read at row `p`: the inner product of row `p` with its partner. -/
theorem posOf_apply (p : Fin 16384) :
    concatenate S16384 0 [⟨S8192, dotOf A B⟩, ⟨S8192, dotOf A B⟩] concatenates_S8192_S8192_S16384_d0 (ix1 p)
      = Cert.Spec.posK (Cert.Spec.unit (cur A)) (Cert.Spec.unit (cur B)) p := by
  by_cases hp : p.val < 8192
  · have e := concatenate_pair_apply_left (t := S16384) (s₁ := S8192) (s₂ := S8192) 0 (dotOf A B) (dotOf A B)
      concatenates_S8192_S8192_S16384_d0 (ix1 p) rfl (ix1 (⟨p.val, hp⟩ : Fin 8192)) (fun b => by
        match b with
        | ⟨0, _⟩ => rfl)
    have hm : (⟨p.val % 8192, Nat.mod_lt _ (by norm_num)⟩ : Fin 8192) = ⟨p.val, hp⟩ := Fin.ext (Nat.mod_eq_of_lt hp)
    rw [e, dotOf_apply, Cert.Spec.posK, hm]
  · have hq : p.val - 8192 < 8192 := by have := p.isLt; omega
    have e := concatenate_pair_apply_right (t := S16384) (s₁ := S8192) (s₂ := S8192) 0 (dotOf A B) (dotOf A B)
      concatenates_S8192_S8192_S16384_d0 (ix1 p) rfl rfl (ix1 (⟨p.val - 8192, hq⟩ : Fin 8192)) (fun b hb => by
        have h1 : b.val < 1 := b.isLt
        exact absurd (Fin.ext (by show b.val = 0; omega)) hb) (by show p.val - 8192 + 8192 = p.val; omega)
    have hm : (⟨p.val % 8192, Nat.mod_lt _ (by norm_num)⟩ : Fin 8192) = ⟨p.val - 8192, hq⟩ := Fin.ext (by show p.val % 8192 = p.val - 8192; have := p.isLt; omega)
    rw [e, dotOf_apply, Cert.Spec.posK, hm]

end Cert.KernelIdeal.Prefix

end
-- ==== Proof.KernelPrefix.Read13.lean ====
/-
  The partner inner products as the host operations after the region find them: the contents of the buffer holding
  the row sums of the product of the two scaled arrays, twice over, as the composed operations applied to the two
  argument arrays.
-/
import proofs.«113570_j12652973654546_2_alg».proof.Proof.KernelPrefix.Terms

set_option maxRecDepth 16384

noncomputable section

namespace Cert.KernelIdeal.Prefix

open Idealize.ShloMosaic Idealize.ShloMosaic.TcCoe Idealize.ShloMosaic.Tactic Idealize.ShloMosaic.ValueIdx
open Idealize.SL Idealize.SL.RA Idealize.SL.BI
open Idealize.SL.BI.BIBase Idealize.SL.Sem
open scoped BigOperators
open Cert.KernelIdeal Cert.KernelIdeal.Gen

variable (m : (ℓ : Loc nD τ sig) → Buf (Elt Ideal) ℓ) (c : Dev nD)

set_option maxHeartbeats 1000000 in
/-- The row sums of the product of the two scaled arrays, concatenated with themselves. -/
theorem v13_eq : (Gen.V m c main_v13 : S16384.Idx → EReal)
    = concatenate S16384 0 [⟨S8192, dotOf (m ((c : Thread nD τ).loc main_arg0)) (m ((c : Thread nD τ).loc main_arg1))⟩,
        ⟨S8192, dotOf (m ((c : Thread nD τ).loc main_arg0)) (m ((c : Thread nD τ).loc main_arg1))⟩] concatenates_S8192_S8192_S16384_d0 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

end Cert.KernelIdeal.Prefix

end
-- ==== Proof.KernelPrefix.Read16.lean ====
/-
  The stacked array times two as the kernel region finds it: the contents of the buffer the host operations before the
  region wrote, as the composed operations applied to the two argument arrays. Rounding to the narrower format is the
  identity over the extended reals.
-/
import proofs.«113570_j12652973654546_2_alg».proof.Proof.KernelPrefix.Terms

set_option maxRecDepth 16384

noncomputable section

namespace Cert.KernelIdeal.Prefix

open Idealize.ShloMosaic Idealize.ShloMosaic.TcCoe Idealize.ShloMosaic.Tactic Idealize.ShloMosaic.ValueIdx
open Idealize.SL Idealize.SL.RA Idealize.SL.BI
open Idealize.SL.BI.BIBase Idealize.SL.Sem
open scoped BigOperators
open Cert.KernelIdeal Cert.KernelIdeal.Gen

variable (m : (ℓ : Loc nD τ sig) → Buf (Elt Ideal) ℓ) (c : Dev nD)

set_option maxHeartbeats 1000000 in
/-- The first operand of the region: the stack times the word of two spread over every entry. -/
theorem v16_eq : (Gen.V m c main_v16 : S16384x128.Idx → EReal)
    = mulf (stackedOf (m ((c : Thread nD τ).loc main_arg0)) (m ((c : Thread nD τ).loc main_arg1)))
        (broadcastInDim (s := S_) S16384x128 ![] bcast_S_S16384x128 (constant (F := Ideal) S_ .f32 0x40000000#32)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

end Cert.KernelIdeal.Prefix

end
-- ==== Proof.KernelPrefix.Read17.lean ====
/-
  The stacked array as the kernel region finds it: the contents of the buffer the last host operation before the region
  wrote, as the composed operations applied to the two argument arrays. Rounding to the narrower format is the identity
  over the extended reals, so the buffer holds the stack itself.
-/
import proofs.«113570_j12652973654546_2_alg».proof.Proof.KernelPrefix.Terms

set_option maxRecDepth 16384

noncomputable section

namespace Cert.KernelIdeal.Prefix

open Idealize.ShloMosaic Idealize.ShloMosaic.TcCoe Idealize.ShloMosaic.Tactic Idealize.ShloMosaic.ValueIdx
open Idealize.SL Idealize.SL.RA Idealize.SL.BI
open Idealize.SL.BI.BIBase Idealize.SL.Sem
open scoped BigOperators
open Cert.KernelIdeal Cert.KernelIdeal.Gen

variable (m : (ℓ : Loc nD τ sig) → Buf (Elt Ideal) ℓ) (c : Dev nD)

set_option maxHeartbeats 1000000 in
/-- The second operand of the region: the two scaled arrays stacked. -/
theorem v17_eq : (Gen.V m c main_v17 : S16384x128.Idx → EReal)
    = stackedOf (m ((c : Thread nD τ).loc main_arg0)) (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

end Cert.KernelIdeal.Prefix

end
-- ==== Proof.KernelPrefix.lean ====
/-
  What the kernel region is handed. The two operands of the region and the vector of partner inner products, each the
  contents of a buffer the host operations before the region wrote, are stated entry by entry in terms of the two
  argument arrays: the second operand is the stack of the two arrays scaled to unit rows, the first is that stack times
  two, and the vector holds, at row `r`, the inner product of the two scaled arrays' rows `r mod 8192`.
-/
import proofs.«113570_j12652973654546_2_alg».proof.Proof.KernelPrefix.Read13
import proofs.«113570_j12652973654546_2_alg».proof.Proof.KernelPrefix.Read16
import proofs.«113570_j12652973654546_2_alg».proof.Proof.KernelPrefix.Read17

set_option maxRecDepth 16384

noncomputable section

namespace Cert.KernelIdeal.Prefix

open Idealize.ShloMosaic Idealize.ShloMosaic.TcCoe Idealize.ShloMosaic.Tactic Idealize.ShloMosaic.ValueIdx
open Idealize.SL Idealize.SL.RA Idealize.SL.BI
open Idealize.SL.BI.BIBase Idealize.SL.Sem
open scoped BigOperators
open Cert.KernelIdeal Cert.KernelIdeal.Gen

variable (m : (ℓ : Loc nD τ sig) → Buf (Elt Ideal) ℓ) (c : Dev nD)

/-- The second operand of the region is the stack of the two arrays scaled to unit rows. -/
theorem rhs_eq : (Gen.V m c main_v17 : S16384x128.Idx → EReal)
    = fun i => Cert.Spec.stack (Cert.Spec.unit (cur (n := 8192) (m ((c : Thread nD τ).loc main_arg0))))
        (Cert.Spec.unit (cur (n := 8192) (m ((c : Thread nD τ).loc main_arg1)))) (i 0) (i 1) := by
  refine (v17_eq m c).trans (funext fun i => ?_)
  obtain ⟨p, q, rfl⟩ : ∃ (p : Fin 16384) (q : Fin 128), i = ix2 p q := ⟨i 0, i 1, eq_ix2 i⟩
  exact stackedOf_apply _ _ p q

/-- The first operand of the region is that stack times two. -/
theorem lhs_eq : (Gen.V m c main_v16 : S16384x128.Idx → EReal)
    = fun i => Cert.Spec.stack (Cert.Spec.unit (cur (n := 8192) (m ((c : Thread nD τ).loc main_arg0))))
        (Cert.Spec.unit (cur (n := 8192) (m ((c : Thread nD τ).loc main_arg1)))) (i 0) (i 1) * Cert.Spec.two := by
  refine (v16_eq m c).trans (funext fun i => ?_)
  obtain ⟨p, q, rfl⟩ : ∃ (p : Fin 16384) (q : Fin 128), i = ix2 p q := ⟨i 0, i 1, eq_ix2 i⟩
  show stackedOf _ _ (ix2 p q) * broadcastInDim (s := S_) S16384x128 ![] bcast_S_S16384x128 _ (ix2 p q) = _
  rw [stackedOf_apply, broadcastInDim_apply (s := S_) (t := S16384x128) ![] bcast_S_S16384x128 _ (ix2 p q) ix0 (fun a => a.elim0)]
  rfl

/-- The vector of partner inner products holds, at row `r`, the inner product of the scaled arrays' rows `r mod 8192`. -/
theorem pos_eq : (Gen.V m c main_v13 : S16384.Idx → EReal)
    = fun i => Cert.Spec.posK (Cert.Spec.unit (cur (n := 8192) (m ((c : Thread nD τ).loc main_arg0))))
        (Cert.Spec.unit (cur (n := 8192) (m ((c : Thread nD τ).loc main_arg1)))) (i 0) := by
  refine (v13_eq m c).trans (funext fun i => ?_)
  obtain ⟨p, rfl⟩ : ∃ p : Fin 16384, i = ix1 p := ⟨i 0, eq_ix1 i⟩
  exact posOf_apply _ _ p

end Cert.KernelIdeal.Prefix

end
-- ==== Proof.KernelRun.lean ====
/-
  The block-by-block program's run, read: every weakly fair execution ends with the result at the spec's block-by-block
  loss of the two argument arrays, and the arguments unchanged. The result is what the host operations after the region
  make of the result column and of the partner inner products; the column is the running sums after all sixteen tiles.
-/
import proofs.«113570_j12652973654546_2_alg».proof.Proof.Final
import proofs.«113570_j12652973654546_2_alg».proof.Proof.KernelPrefix

set_option maxRecDepth 16384

noncomputable section

namespace Cert.KernelIdeal.Sum

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Prefix

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v25)
        = (fun _ => Cert.Spec.kernelLoss (cur (m ((c.tc : Thread nD τ).loc main_arg0))) (cur (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v25 (Pipeline.mem_restRefs_of main_v25 (by decide) (by decide))).trans
          ((tail_eq m c _ (lhs_eq m c) (rhs_eq m c) _ (pos_eq m c)).trans (by unfold Cert.Spec.kernelLoss Cert.Spec.lossK; rfl)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Sum

end
-- ==== Proof.RefValue.Rows.lean ====
/-
  The stacked rows and their scaling to unit length, entry by entry: the concatenation of the two argument arrays is
  the stack, the square root of a row's sum of squares bounded below by the small constant is the row's length, and
  the quotient of the stack by the length (spread along the row) is the unit row.
-/
import proofs.«113570_j12652973654546_2_alg».proof.Proof.Gen.ReferenceIdeal.Read
import proofs.«113570_j12652973654546_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-- An [n,128] array as a function of its two coordinates. -/
def cur {n : ℕ} (A : (⟨2, ![n, 128]⟩ : Shape).Idx → EReal) : Fin n → Fin 128 → EReal := fun r d => A (ix2 r d)

/-- An argument array: 8192 rows of 128 extended reals. -/
abbrev Arr : Type := (⟨S8192x128, .f32⟩ : BufTy).Contents (Elt Ideal)

/-- The two arguments stacked, as a function of coordinates. -/
abbrev stk (x0 x1 : Arr) : Fin 16384 → Fin 128 → EReal := Cert.Spec.stack (cur x0) (cur x1)

/-- The concatenation along the rows is the stack. -/
theorem v0_apply (x0 x1 : Arr) (r : Fin 16384) (d : Fin 128) :
    val_main_v0 (F := Ideal) x0 x1 (ix2 r d) = stk x0 x1 r d := by
  unfold val_main_v0
  show _ = Cert.Spec.stack (cur x0) (cur x1) r d
  unfold Cert.Spec.stack
  by_cases h : r.val < 8192
  · rw [dif_pos h]
    exact concatenate_pair_apply_left (0 : Fin S16384x128.rank) x0 x1 _ (ix2 r d) rfl (ix2 ⟨r.val, h⟩ d)
      (fun b => match b with | ⟨0, _⟩ => rfl | ⟨1, _⟩ => rfl)
  · rw [dif_neg h]
    exact concatenate_pair_apply_right (0 : Fin S16384x128.rank) x0 x1 _ (ix2 r d) rfl rfl
      (ix2 ⟨r.val - 8192, by omega⟩ d)
      (fun b hb => match b, hb with | ⟨0, _⟩, hb => absurd rfl hb | ⟨1, _⟩, _ => rfl)
      (by show r.val - 8192 + 8192 = r.val; omega)

/-- The row length bounded below, read at the one column of the column array. -/
theorem v3_apply (x0 x1 : Arr) (r : Fin 16384) (z : Fin 1) :
    val_main_v3 (F := Ideal) x0 x1 (ix2 r z) = Cert.Spec.rowNorm (stk x0 x1) r := by
  rw [val_main_v3_apply, val_main_v1_apply, val_main_call0_v2_apply, val_main_call0_v1_apply, val_main_v2_apply,
    val_main_cst_apply, val_main_call0_cst_apply]
  simp only [Ideal.maximumf_def, Ideal.hostUnary_sqrt_def, Ideal.ofBits_def, Ideal.ofBits_zero_f32, zero_add]
  unfold Cert.Spec.rowNorm Cert.Spec.eps
  refine congrArg (fun s => max (Ideal.sqrt s) _) (Finset.sum_congr rfl fun k _ => ?_)
  rw [val_main_call0_v0_apply, Ideal.mulf_def]
  have e : idx_main_call0_v1 (idx_main_call0_v2 (ix2 r z)) k = ix2 r k :=
    funext fun a => match a with | ⟨0, _⟩ => rfl | ⟨1, _⟩ => rfl
  rw [e, v0_apply]

/-- The scaled stacked rows. -/
abbrev Z (x0 x1 : Arr) : Fin 16384 → Fin 128 → EReal := Cert.Spec.unit (stk x0 x1)

/-- The quotient of the stack by the row length is the unit row. -/
theorem v5_apply (x0 x1 : Arr) (r : Fin 16384) (d : Fin 128) :
    val_main_v5 (F := Ideal) x0 x1 (ix2 r d) = Z x0 x1 r d := by
  rw [val_main_v5_apply, val_main_v4_apply, Ideal.hostDivf_def, v0_apply]
  have e : idx_main_v4 (ix2 r d) = ix2 r (0 : Fin 1) :=
    funext fun a => match a with | ⟨0, _⟩ => rfl | ⟨1, _⟩ => rfl
  rw [e, v3_apply]
  rfl

end Cert.RefValue

end
-- ==== Proof.RefValue.Sim.lean ====
/-
  The similarity matrix, entry by entry: the product of the unit rows with their transpose is, at row r and column c,
  the inner product of unit rows r and c.
-/
import proofs.«113570_j12652973654546_2_alg».proof.Proof.RefValue.Rows

noncomputable section

open scoped BigOperators

namespace Cert.RefValue

open Cert.ReferenceIdeal Cert.ReferenceIdeal.Gen Cert.ReferenceIdeal.Read Idealize.ShloMosaic Idealize.ShloMosaic.ValueIdx

/-- The matrix product read at an entry is the inner product of two unit rows. -/
theorem v7_apply (x0 x1 : Arr) (r c : Fin 16384) :
    val_main_v7 (F := Ideal) x0 x1 (ix2 r c) = Cert.Spec.simR (Z x0 x1) r c := by
  rw [val_main_v7_apply]
  unfold Cert.Spec.simR
  refine Finset.sum_congr rfl fun k _ => ?_
  have el : lidx_main_v7 (ix2 r c) k = ix2 r k :=
    funext fun a => match a with | ⟨0, _⟩ => rfl | ⟨1, _⟩ => rfl
  have er : idx_main_v6 (ridx_main_v7 (ix2 r c) k) = ix2 c k :=
    funext fun a => match a with | ⟨0, _⟩ => rfl | ⟨1, _⟩ => rfl
  rw [el, val_main_v6_apply, er, v5_apply, v5_apply]

end Cert.RefValue

end
-- ==== Proof.RefValue.Gather.lean ====
/-
  A gather of single entries of a square array at pairs of start indices, read at a result index: with both operand
  axes collapsed, slices of size one, and the pair of start indices laid along the second axis of the index array,
  result entry t is the operand at (row, column) = the t-th pair, each component read as a signed integer and clamped
  into the array.
-/
import Idealize.ShloMosaic.Lib.ValueIdx

noncomputable section

namespace Cert.RefValue

open Idealize.ShloMosaic Idealize.ShloMosaic.ValueIdx

section Pair
variable {α : Type}

/-- The dimension numbers: operand [N, N], start indices [R, 2], result [R]. -/
abbrev pairDims (N R : Nat) (wf : GatherDims.WF ⟨2, ![N, N]⟩ ⟨2, ![R, 2]⟩ ⟨1, ![R]⟩ [] [0, 1] [] [0, 1] [] 1 ![1, 1]) :
    GatherDims ⟨2, ![N, N]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The index array's entry holding component c of the t-th pair. -/
abbrev pairIdx {R : Nat} (y : (⟨1, ![R]⟩ : Shape).Idx) (c : Fin 2) : (⟨2, ![R, 2]⟩ : Shape).Idx :=
  fun a => match a with | ⟨0, _⟩ => ⟨(y 0).val, (y 0).isLt⟩ | ⟨1, _⟩ => c

/-- The gather read at t: the operand at the t-th pair of start indices, each clamped into [0, N - 1]. -/
theorem gather_pair_apply {N R w : Nat} (hN : 0 < N)
    (wf : GatherDims.WF ⟨2, ![N, N]⟩ ⟨2, ![R, 2]⟩ ⟨1, ![R]⟩ [] [0, 1] [] [0, 1] [] 1 ![1, 1])
    (x : (⟨2, ![N, N]⟩ : Shape).Idx → α) (idx : IVec ⟨2, ![R, 2]⟩ w) (y : (⟨1, ![R]⟩ : Shape).Idx) :
    Host.gather (pairDims N R wf) x idx y
      = x (ix2 ⟨min (idx (pairIdx y 0)).toInt.toNat (N - 1), by omega⟩
               ⟨min (idx (pairIdx y 1)).toInt.toNat (N - 1), by omega⟩) := by
  unfold Host.gather
  congr 1
  funext a
  refine Fin.ext ?_
  show (pairDims N R wf).start y idx a + (pairDims N R wf).batchCoord y a + (pairDims N R wf).offCoord y a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_cons.2 (Or.inl rfl)))]
    simp only [Nat.add_zero]
    unfold GatherDims.start
    rw [dif_pos (show (⟨0, h0⟩ : Fin 2) ∈ (pairDims N R wf).startIndexMap from List.mem_cons.2 (Or.inl rfl))]
    have hsi : (pairDims N R wf).siIdx y ⟨List.idxOf (⟨0, h0⟩ : Fin 2) (pairDims N R wf).startIndexMap,
        List.idxOf_lt_length_iff.2 (List.mem_cons.2 (Or.inl rfl))⟩ = pairIdx y 0 := by
      funext b; refine Fin.ext ?_
      match b with
      | ⟨0, _⟩ => rfl
      | ⟨1, _⟩ => rfl
    rw [hsi]
    rfl
  | ⟨1, h1⟩ =>
    rw [GatherDims.offCoord_eq_zero _ _ _ (fun h => ((GatherDims.mem_sKept _ _).mp h).1 (List.mem_cons.2 (Or.inr (List.mem_cons.2 (Or.inl rfl)))))]
    simp only [Nat.add_zero]
    unfold GatherDims.start
    rw [dif_pos (show (⟨1, h1⟩ : Fin 2) ∈ (pairDims N R wf).startIndexMap from List.mem_cons.2 (Or.inr (List.mem_cons.2 (Or.inl rfl))))]
    have hsi : (pairDims N R wf).siIdx y ⟨List.idxOf (⟨1, h1⟩ : Fin 2) (pairDims N R wf).startIndexMap,
        List.idxOf_lt_length_iff.2 (List.mem_cons.2 (Or.inr (List.mem_cons.2 (Or.inl rfl))))⟩ = pairIdx y 1 := by
      funext b; refine Fin.ext ?_
      match b with
      | ⟨0, _⟩ => rfl
      | ⟨1, _⟩ => rfl
    rw [hsi]
    rfl

end Pair

end Cert.RefValue

end
-- ==== Proof.RefValue.Words.lean ====
/-
  Facts about 32-bit index words that hold small natural numbers: read as a signed integer such a word is the number
  itself, so it is never below zero, clamping it into an array of 16384 entries changes nothing, and two such words are
  equal exactly when the numbers are.
-/
import Idealize.ShloMosaic.Lib.ValueIdx

noncomputable section

namespace Cert.RefValue

open Idealize.ShloMosaic

/-- The word of a number below 2^32 holds that number. -/
theorem word_toNat (n : Nat) (h : n < 4294967296) : (BitVec.ofNat 32 n).toNat = n := by
  rw [BitVec.toNat_ofNat]; exact Nat.mod_eq_of_lt (by omega)

/-- Read signed, the word of a number below 2^31 is that number. -/
theorem word_toInt (n : Nat) (h : n < 2147483648) : (BitVec.ofNat 32 n).toInt = (n : Int) := by
  have hn := word_toNat n (by omega)
  rw [BitVec.toInt_eq_toNat_of_lt (by rw [hn]; omega), hn]

/-- Clamping the word of an in-range index into [0, 16383] gives the index. -/
theorem word_index (n : Nat) (h : n < 16384) : min (BitVec.ofNat 32 n).toInt.toNat (16384 - 1) = n := by
  rw [word_toInt n (by omega), Int.toNat_natCast]; omega

/-- The word of a number below 2^31 is not below zero as a signed integer. -/
theorem word_slt_zero (n : Nat) (h : n < 2147483648) : IntOp.cmpi .slt (BitVec.ofNat 32 n) 0#32 = 0#1 := by
  have e : (BitVec.ofNat 32 n).slt 0#32 = false := by
    unfold BitVec.slt
    exact decide_eq_false (by rw [word_toInt n h, BitVec.toInt_zero]; omega)
  show BitVec.ofBool ((BitVec.ofNat 32 n).slt 0#32) = 0#1
  rw [e]; rfl

/-- Two words of numbers below 2^32 compare equal exactly when the numbers are equal. -/
theorem word_eq (r c : Nat) (hr : r < 4294967296) (hc : c < 4294967296) :
    IntOp.cmpi .eq (BitVec.ofNat 32 r) (BitVec.ofNat 32 c) = if r = c then 1#1 else 0#1 := by
  show BitVec.ofBool (BitVec.ofNat 32 r == BitVec.ofNat 32 c) = _
  by_cases h : r = c
  · subst h; rw [if_pos rfl, beq_self_eq_true]; rfl
  · rw [if_neg h]
    have e : (BitVec.ofNat 32 r == BitVec.ofNat 32 c) = false := by
      rw [beq_eq_false_iff_ne]; intro e
      have := congrArg BitVec.toNat e
      rw [word_toNat r hr, word_toNat c hc] at this
      exact h this
    rw [e]; rfl

/-- Adding the word of 8192 to the word of a number gives the word of the sum. -/
theorem word_add_8192 (n : Nat) : IntOp.addi 8192#32 (BitVec.ofNat 32 n) = BitVec.ofNat 32 (8192 + n) := by
  show 8192#32 + BitVec.ofNat 32 n = _
  rw [BitVec.ofNat_add]

/-- Adding the zero word changes nothing. -/
theorem word_add_zero (x : BitVec 32) : IntOp.addi x 0#32 = x := by
  show x + 0#32 = x
  exact BitVec.add_zero x

end Cert.RefValue

end
-- ==== Proof.RefValue.Diag.lean ====
/-
  The two off-diagonals of the similarity matrix and their concatenation: every row's inner product with its partner.
  The first gather reads entry (t, 8192 + t) and the second entry (8192 + t, t), for t below 8192: the index words are
  small natural numbers, so the wrap-around of negative indices never applies and clamping into the array is the
  identity.
-/
import proofs.«113570_j12652973654546_2_alg».proof.Proof.RefValue.Sim
import proofs.«113570_j12652973654546_2_alg».proof.Proof.RefValue.Gather
import proofs.«113570_j12652973654546_2_alg».proof.Proof.RefValue.Words

noncomputable section

open scoped BigOperators

namespace Cert.RefValue

open Cert.ReferenceIdeal Cert.ReferenceIdeal.Gen Cert.ReferenceIdeal.Read Idealize.ShloMosaic Idealize.ShloMosaic.ValueIdx

/-! ## The index words -/

/-- First function, row index: the position itself. -/
theorem c1_v8_apply (i : S8192.Idx) : val_main_call1_v8 (F := Ideal) i = BitVec.ofNat 32 (i 0).val := by
  have h : (i 0).val < 8192 := (i 0).isLt
  rw [val_main_call1_v8_apply, val_main_call1_v5_apply, val_main_call1_v0_apply, val_main_call1_v4_apply,
    val_main_call1_c_0_apply, word_slt_zero _ (by omega), select_zero]

/-- First function, column index: 8192 past the position. -/
theorem c1_v13_apply (i : S8192.Idx) : val_main_call1_v13 (F := Ideal) i = BitVec.ofNat 32 (8192 + (i 0).val) := by
  have h : (i 0).val < 8192 := (i 0).isLt
  have e3 : val_main_call1_v3 (F := Ideal) i = BitVec.ofNat 32 (8192 + (i 0).val) := by
    rw [val_main_call1_v3_apply, val_main_call1_v2_apply, val_main_call1_c_apply, val_main_call1_v1_apply, word_add_8192]
  rw [val_main_call1_v13_apply, val_main_call1_v10_apply, e3, val_main_call1_v9_apply, val_main_call1_c_2_apply,
    word_slt_zero _ (by omega), select_zero]

/-- Second function, row index: 8192 past the position. -/
theorem c2_v8_apply (i : S8192.Idx) : val_main_call2_v8 (F := Ideal) i = BitVec.ofNat 32 (8192 + (i 0).val) := by
  have h : (i 0).val < 8192 := (i 0).isLt
  have e3 : val_main_call2_v3 (F := Ideal) i = BitVec.ofNat 32 (8192 + (i 0).val) := by
    rw [val_main_call2_v3_apply, val_main_call2_v2_apply, val_main_call2_c_apply, val_main_call2_v1_apply, word_add_8192]
  rw [val_main_call2_v8_apply, val_main_call2_v5_apply, e3, val_main_call2_v4_apply, val_main_call2_c_0_apply,
    word_slt_zero _ (by omega), select_zero]

/-- Second function, column index: the position itself. -/
theorem c2_v13_apply (i : S8192.Idx) : val_main_call2_v13 (F := Ideal) i = BitVec.ofNat 32 (i 0).val := by
  have h : (i 0).val < 8192 := (i 0).isLt
  rw [val_main_call2_v13_apply, val_main_call2_v10_apply, val_main_call2_v0_apply, val_main_call2_v9_apply,
    val_main_call2_c_2_apply, word_slt_zero _ (by omega), select_zero]

/-- The index array of the first function: the pair (t, 8192 + t). -/
theorem c1_v16_apply0 (i : Fin 8192) :
    val_main_call1_v16 (F := Ideal) (pairIdx (ix1 i) 0) = BitVec.ofNat 32 i.val := by
  unfold val_main_call1_v16
  refine (concatenate_pair_apply_left (1 : Fin S8192x2.rank) (val_main_call1_v14 (F := Ideal)) (val_main_call1_v15 (F := Ideal)) _
    (pairIdx (ix1 i) 0) rfl (ix2 i (0 : Fin 1))
    (fun b => match b with | ⟨0, _⟩ => rfl | ⟨1, _⟩ => rfl)).trans ?_
  exact (val_main_call1_v14_apply _).trans (c1_v8_apply _)

theorem c1_v16_apply1 (i : Fin 8192) :
    val_main_call1_v16 (F := Ideal) (pairIdx (ix1 i) 1) = BitVec.ofNat 32 (8192 + i.val) := by
  unfold val_main_call1_v16
  refine (concatenate_pair_apply_right (1 : Fin S8192x2.rank) (val_main_call1_v14 (F := Ideal)) (val_main_call1_v15 (F := Ideal)) _
    (pairIdx (ix1 i) 1) rfl rfl (ix2 i (0 : Fin 1))
    (fun b hb => match b, hb with | ⟨0, _⟩, _ => rfl | ⟨1, _⟩, hb => absurd rfl hb) rfl).trans ?_
  exact (val_main_call1_v15_apply _).trans (c1_v13_apply _)

/-- The index array of the second function: the pair (8192 + t, t). -/
theorem c2_v16_apply0 (i : Fin 8192) :
    val_main_call2_v16 (F := Ideal) (pairIdx (ix1 i) 0) = BitVec.ofNat 32 (8192 + i.val) := by
  unfold val_main_call2_v16
  refine (concatenate_pair_apply_left (1 : Fin S8192x2.rank) (val_main_call2_v14 (F := Ideal)) (val_main_call2_v15 (F := Ideal)) _
    (pairIdx (ix1 i) 0) rfl (ix2 i (0 : Fin 1))
    (fun b => match b with | ⟨0, _⟩ => rfl | ⟨1, _⟩ => rfl)).trans ?_
  exact (val_main_call2_v14_apply _).trans (c2_v8_apply _)

theorem c2_v16_apply1 (i : Fin 8192) :
    val_main_call2_v16 (F := Ideal) (pairIdx (ix1 i) 1) = BitVec.ofNat 32 i.val := by
  unfold val_main_call2_v16
  refine (concatenate_pair_apply_right (1 : Fin S8192x2.rank) (val_main_call2_v14 (F := Ideal)) (val_main_call2_v15 (F := Ideal)) _
    (pairIdx (ix1 i) 1) rfl rfl (ix2 i (0 : Fin 1))
    (fun b hb => match b, hb with | ⟨0, _⟩, _ => rfl | ⟨1, _⟩, hb => absurd rfl hb) rfl).trans ?_
  exact (val_main_call2_v15_apply _).trans (c2_v13_apply _)

/-! ## The gathers -/

/-- A gather of the similarity matrix at a pair of in-range index words reads the inner product of those two rows. -/
theorem gather_at (x0 x1 : Arr) (idx : IVec S8192x2 32) (i : Fin 8192) (a b : Fin 16384)
    (ha : idx (pairIdx (ix1 i) 0) = BitVec.ofNat 32 a.val) (hb : idx (pairIdx (ix1 i) 1) = BitVec.ofNat 32 b.val) :
    Host.gather gather_S16384x16384_S8192x2_S8192_n_01_n_n_01_1_11 (val_main_v7 (F := Ideal) x0 x1) idx (ix1 i)
      = Cert.Spec.simR (Z x0 x1) a b := by
  refine (gather_pair_apply (N := 16384) (R := 8192) (by norm_num) _ _ _ (ix1 i)).trans ?_
  refine (congrArg (val_main_v7 (F := Ideal) x0 x1) (?_ : _ = ix2 a b)).trans (v7_apply x0 x1 a b)
  funext d
  refine Fin.ext ?_
  match d with
  | ⟨0, _⟩ =>
    show min (idx (pairIdx (ix1 i) 0)).toInt.toNat (16384 - 1) = a.val
    rw [ha]; exact word_index _ a.isLt
  | ⟨1, _⟩ =>
    show min (idx (pairIdx (ix1 i) 1)).toInt.toNat (16384 - 1) = b.val
    rw [hb]; exact word_index _ b.isLt

/-- The first off-diagonal: entry t is the inner product of rows t and 8192 + t. -/
theorem v8_apply (x0 x1 : Arr) (i : Fin 8192) (a b : Fin 16384) (ha : a.val = i.val) (hb : b.val = 8192 + i.val) :
    val_main_v8 (F := Ideal) x0 x1 (ix1 i) = Cert.Spec.simR (Z x0 x1) a b := by
  unfold val_main_v8
  exact gather_at x0 x1 _ i a b (by rw [c1_v16_apply0, ha]) (by rw [c1_v16_apply1, hb])

/-- The second off-diagonal: entry t is the inner product of rows 8192 + t and t. -/
theorem v9_apply (x0 x1 : Arr) (i : Fin 8192) (a b : Fin 16384) (ha : a.val = 8192 + i.val) (hb : b.val = i.val) :
    val_main_v9 (F := Ideal) x0 x1 (ix1 i) = Cert.Spec.simR (Z x0 x1) a b := by
  unfold val_main_v9
  exact gather_at x0 x1 _ i a b (by rw [c2_v16_apply0, ha]) (by rw [c2_v16_apply1, hb])

/-- The two off-diagonals end to end: every row's inner product with its partner. -/
theorem v10_apply (x0 x1 : Arr) (r : Fin 16384) :
    val_main_v10 (F := Ideal) x0 x1 (ix1 r) = Cert.Spec.simR (Z x0 x1) r (Cert.Spec.partner r) := by
  have hr := r.isLt
  unfold val_main_v10
  by_cases h : r.val < 8192
  · refine (concatenate_pair_apply_left (0 : Fin S16384.rank) (val_main_v8 (F := Ideal) x0 x1) (val_main_v9 (F := Ideal) x0 x1) _
      (ix1 r) rfl (ix1 (⟨r.val, h⟩ : Fin 8192))
      (fun b => match b with | ⟨0, _⟩ => rfl)).trans ?_
    exact v8_apply x0 x1 ⟨r.val, h⟩ r (Cert.Spec.partner r) rfl
      (by show (r.val + 8192) % 16384 = 8192 + r.val; omega)
  · refine (concatenate_pair_apply_right (0 : Fin S16384.rank) (val_main_v8 (F := Ideal) x0 x1) (val_main_v9 (F := Ideal) x0 x1) _
      (ix1 r) rfl rfl
      (ix1 (⟨r.val - 8192, by omega⟩ : Fin 8192))
      (fun b hb => match b, hb with | ⟨0, _⟩, hb => absurd rfl hb)
      (by show r.val - 8192 + 8192 = r.val; omega)).trans ?_
    exact v9_apply x0 x1 ⟨r.val - 8192, by omega⟩ r (Cert.Spec.partner r)
      (by show r.val = 8192 + (r.val - 8192); omega)
      (by show (r.val + 8192) % 16384 = r.val - 8192; omega)

end Cert.RefValue

end
-- ==== Proof.RefValue.Den.lean ====
/-
  The denominators: the mask is off exactly on the diagonal, the masked array holds zero on the diagonal and the
  exponential of the inner product divided by one half elsewhere, and its row sums are the sums of exponentials over
  the other rows.
-/
import proofs.«113570_j12652973654546_2_alg».proof.Proof.RefValue.Sim
import proofs.«113570_j12652973654546_2_alg».proof.Proof.RefValue.Words

noncomputable section

open scoped BigOperators

namespace Cert.RefValue

open Cert.ReferenceIdeal Cert.ReferenceIdeal.Gen Cert.ReferenceIdeal.Read Idealize.ShloMosaic Idealize.ShloMosaic.ValueIdx

/-- The mask: off on the diagonal, on elsewhere. -/
theorem v16_apply (r c : Fin 16384) : val_main_v16 (F := Ideal) (ix2 r c) = if r = c then 0#1 else 1#1 := by
  have hr := r.isLt
  have hc := c.isLt
  rw [val_main_v16_apply, val_main_v15_apply, val_main_v14_apply, val_main_v11_apply, val_main_v13_apply,
    val_main_c_apply, val_main_v12_apply, word_add_zero]
  show ~~~(IntOp.cmpi .eq (BitVec.ofNat 32 r.val) (BitVec.ofNat 32 c.val)) = _
  rw [word_eq r.val c.val (by omega) (by omega)]
  have hn1 : ~~~(1#1 : BitVec 1) = 0#1 := by decide
  have hn0 : ~~~(0#1 : BitVec 1) = 1#1 := by decide
  by_cases h : r = c
  · rw [if_pos h, if_pos (congrArg Fin.val h), hn1]
  · rw [if_neg h, if_neg (fun e => h (Fin.ext e)), hn0]

/-- The masked exponentials: zero on the diagonal. -/
theorem v20_apply (x0 x1 : Arr) (r c : Fin 16384) :
    val_main_v20 (F := Ideal) x0 x1 (ix2 r c)
      = if r = c then 0 else Ideal.exp (Ideal.div (Cert.Spec.simR (Z x0 x1) r c) Cert.Spec.half) := by
  rw [val_main_v20_apply, v16_apply]
  by_cases h : r = c
  · rw [if_pos h, if_pos h, select_zero, val_main_call3_v1_apply, val_main_call3_v0_apply, val_main_cst_1_apply,
      Ideal.ofBits_def, Ideal.ofBits_zero_f32]
  · rw [if_neg h, if_neg h, select_one, val_main_v19_apply, val_main_v18_apply, val_main_v17_apply,
      val_main_cst_0_apply, Ideal.hostUnary_exp_def, Ideal.hostDivf_def, v7_apply, Ideal.ofBits_def]
    rfl

/-- The row sums of the masked exponentials. -/
theorem v21_apply (x0 x1 : Arr) (r : Fin 16384) :
    val_main_v21 (F := Ideal) x0 x1 (ix1 r) = Cert.Spec.denR (Z x0 x1) r := by
  rw [val_main_v21_apply, val_main_cst_2_apply, Ideal.ofBits_def, Ideal.ofBits_zero_f32, zero_add]
  unfold Cert.Spec.denR
  refine Finset.sum_congr rfl fun k _ => ?_
  have e : idx_main_v21 (ix1 r) k = ix2 r k :=
    funext fun a => match a with | ⟨0, _⟩ => rfl | ⟨1, _⟩ => rfl
  rw [e, v20_apply]

end Cert.RefValue

end
-- ==== Proof.RefValue.Tail.lean ====
/-
  The loss: per row, minus the logarithm of the quotient of the exponential of the partner's inner product (divided by
  one half) by the row's denominator; summed over the rows and divided by their number.
-/
import proofs.«113570_j12652973654546_2_alg».proof.Proof.RefValue.Diag
import proofs.«113570_j12652973654546_2_alg».proof.Proof.RefValue.Den

noncomputable section

open scoped BigOperators

namespace Cert.RefValue

open Cert.ReferenceIdeal Cert.ReferenceIdeal.Gen Cert.ReferenceIdeal.Read Idealize.ShloMosaic Idealize.ShloMosaic.ValueIdx

/-- A one-axis index is its one coordinate. -/
def idxEquiv1 {n : Nat} : (⟨1, ![n]⟩ : Shape).Idx ≃ Fin n where
  toFun i := i 0
  invFun a := ix1 a
  left_inv i := (eq_ix1 i).symm
  right_inv _ := rfl

/-- A sum over one-axis indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- One row's term of the loss. -/
theorem v27_apply (x0 x1 : Arr) (r : Fin 16384) :
    val_main_v27 (F := Ideal) x0 x1 (ix1 r)
      = -(Ideal.log (Ideal.div (Ideal.exp (Ideal.div (Cert.Spec.simR (Z x0 x1) r (Cert.Spec.partner r)) Cert.Spec.half))
          (Cert.Spec.denR (Z x0 x1) r))) := by
  rw [val_main_v27_apply, val_main_v26_apply, val_main_v25_apply, val_main_v24_apply, val_main_v23_apply,
    val_main_v22_apply, val_main_cst_3_apply, v10_apply, v21_apply, Ideal.hostNegf_def, Ideal.negf_def,
    Ideal.hostUnary_log_def, Ideal.hostDivf_def, Ideal.hostUnary_exp_def, Ideal.hostDivf_def, Ideal.ofBits_def]
  rfl

/-- The result: the loss of the stacked, scaled rows. -/
theorem v29_apply (x0 x1 : Arr) :
    val_main_v29 (F := Ideal) x0 x1 ix0 = Cert.Spec.referenceLoss (cur x0) (cur x1) := by
  rw [val_main_v29_apply, val_main_v28_apply, val_main_cst_4_apply, val_main_cst_5_apply, Ideal.hostDivf_def,
    Ideal.ofBits_def, Ideal.ofBits_def, Ideal.ofBits_zero_f32, zero_add, sum_idx1]
  show _ = Cert.Spec.lossR (Z x0 x1)
  unfold Cert.Spec.lossR Cert.Spec.cnt
  exact congrArg (fun s => Ideal.div s (Ideal.ofBits .f32 0x46800000#32))
    (Fintype.sum_congr _ _ fun r => v27_apply x0 x1 r)

end Cert.RefValue

end
-- ==== Proof.RefValue.lean ====
/-
  What the all-at-once program computes: its run's result is the loss `Cert.Spec.referenceLoss` of the two argument arrays.
-/
import proofs.«113570_j12652973654546_2_alg».proof.Proof.Gen.ReferenceIdeal.Run
import proofs.«113570_j12652973654546_2_alg».proof.Proof.Gen.ReferenceIdeal.Read
import proofs.«113570_j12652973654546_2_alg».proof.Proof.Spec
import proofs.«113570_j12652973654546_2_alg».proof.Proof.RefValue.Tail

noncomputable section

open Idealize.ShloMosaic Idealize.ShloMosaic.TcCoe Idealize.SL.Sem

namespace Cert.RefValue

open Cert.ReferenceIdeal Cert.ReferenceIdeal.Gen Cert.ReferenceIdeal.Read Idealize.ShloMosaic.ValueIdx

/-- The run's result term is the constant array at the loss of the two argument arrays. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v29 m c
      = (fun _ => Cert.Spec.referenceLoss
          (cur (m ((c.tc : Thread _ _).loc Cert.ReferenceIdeal.main_arg0)))
          (cur (m ((c.tc : Thread _ _).loc Cert.ReferenceIdeal.main_arg1)))) := by
  rw [val_main_v29_eq]
  funext i
  rw [eq_ix0 i]
  exact v29_apply _ _

/-- Every weakly fair execution of the all-at-once program terminates with its result at the loss of the two argument
    arrays, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v29)
          = (fun _ => Cert.Spec.referenceLoss
              (cur (m ((c.tc : Thread _ _).loc Cert.ReferenceIdeal.main_arg0)))
              (cur (m ((c.tc : Thread _ _).loc Cert.ReferenceIdeal.main_arg1))))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run Cert.ReferenceIdeal.defs _ _).mono (fun _ h c => ⟨(h c).1.trans (result_eq m c), (h c).2⟩)
    (Cert.ReferenceIdeal.Value.run (F := Ideal) m ρ)

end Cert.RefValue

end
-- ==== Proof.Algebra.Consts.lean ====
/-
  The four single-precision constants of the specification as real numbers: the lower bound of a row's length is a
  positive real, and the other three are one half, two and 16384.
-/
import proofs.«113570_j12652973654546_2_alg».proof.Proof.Spec
import Mathlib.Tactic.NormNum
import Mathlib.Tactic.Positivity

noncomputable section

namespace Cert.Algebra

open Idealize.ShloMosaic Cert.Spec

/-- The real number the pattern of the lower bound denotes: 11258999 · 2⁻⁵⁰. -/
def epsR : ℝ := 11258999 * (2 : ℝ) ^ (-50 : Int)

theorem epsR_pos : 0 < epsR := by unfold epsR; positivity

theorem eps_eq : eps = (epsR : EReal) := by
  unfold eps epsR
  simp [Ideal.ofBits, Ideal.ieee, -EReal.coe_mul]

theorem half_eq : half = (((1 : ℝ) / 2 : ℝ) : EReal) := by
  unfold half
  simp [Ideal.ofBits, Ideal.ieee, -EReal.coe_mul]; norm_num

theorem two_eq : two = ((2 : ℝ) : EReal) := by
  unfold two
  simp [Ideal.ofBits, Ideal.ieee, -EReal.coe_mul]; norm_num

theorem cnt_eq : cnt = ((16384 : ℝ) : EReal) := by
  unfold cnt
  simp [Ideal.ofBits, Ideal.ieee, -EReal.coe_mul]; norm_num

end Cert.Algebra

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.Algebra.Reals.lean ====
/-
  The specification's arrays over real entries. An array of extended reals whose entries are all real numbers is the
  coercion of an array of reals; on such arrays a row's length, the scaling to unit length and the stacking are the
  coercions of the same operations on the reals, and scaling commutes with stacking because a row's length looks at
  that row only.
-/
import proofs.«113570_j12652973654546_2_alg».proof.Proof.Algebra.Consts
import proofs.«113570_j12652973654546_2_alg».proof.Proof.LibRealSums

noncomputable section

open scoped BigOperators

namespace Cert.Algebra

open Idealize.ShloMosaic Cert.Spec Cert.LibRealSums

/-- An array of reals seen as an array of extended reals. -/
def up {n k : ℕ} (a : Fin n → Fin k → ℝ) : Fin n → Fin k → EReal := fun r d => (a r d : EReal)

theorem up_apply {n k : ℕ} (a : Fin n → Fin k → ℝ) (r : Fin n) (d : Fin k) : up a r d = (a r d : EReal) := rfl

/-- An array whose entries are all real is the coercion of an array of reals. -/
theorem exists_up {n k : ℕ} (A : Fin n → Fin k → EReal) (h : AllReal A) : ∃ a : Fin n → Fin k → ℝ, A = up a := by
  choose a ha using h
  exact ⟨a, funext fun r => funext fun d => ha r d⟩

/-- The coercion commutes with the maximum. -/
theorem coe_max (a b : ℝ) : max (a : EReal) (b : EReal) = ((max a b : ℝ) : EReal) :=
  (Monotone.map_max EReal.coe_strictMono.monotone).symm

/-- A sum of products of coerced reals is the coercion of the real sum of products. -/
theorem sum_mul_coe {k : ℕ} (f g : Fin k → ℝ) :
    (∑ d : Fin k, (f d : EReal) * (g d : EReal)) = ((∑ d : Fin k, f d * g d : ℝ) : EReal) := by
  rw [coe_sum]
  exact Finset.sum_congr rfl fun d _ => (EReal.coe_mul _ _).symm

/-- A row's length over the reals. -/
def normR {n : ℕ} (a : Fin n → Fin 128 → ℝ) (r : Fin n) : ℝ := max (Real.sqrt (∑ d : Fin 128, a r d * a r d)) epsR

theorem normR_pos {n : ℕ} (a : Fin n → Fin 128 → ℝ) (r : Fin n) : 0 < normR a r :=
  lt_max_of_lt_right epsR_pos

theorem rowNorm_up {n : ℕ} (a : Fin n → Fin 128 → ℝ) (r : Fin n) : rowNorm (up a) r = (normR a r : EReal) := by
  unfold rowNorm normR
  simp only [up_apply]
  rw [sum_mul_coe, Ideal.sqrt_coe,
    if_neg (not_lt.mpr (Finset.sum_nonneg fun d _ => mul_self_nonneg (a r d))), eps_eq, coe_max]

/-- The rows scaled to unit length, over the reals. -/
def unitR {n : ℕ} (a : Fin n → Fin 128 → ℝ) (r : Fin n) (d : Fin 128) : ℝ := a r d * (1 / normR a r)

theorem unit_up {n : ℕ} (a : Fin n → Fin 128 → ℝ) : unit (up a) = up (unitR a) := by
  funext r d
  unfold unit
  rw [rowNorm_up, Ideal.div_coe (normR_pos a r).ne', up_apply, up_apply, ← EReal.coe_mul]
  rfl

/-- Stacking over the reals. -/
def stackR (x y : Fin 8192 → Fin 128 → ℝ) (r : Fin 16384) (d : Fin 128) : ℝ :=
  if h : r.val < 8192 then x ⟨r.val, h⟩ d else y ⟨r.val - 8192, by omega⟩ d

theorem stack_up (x y : Fin 8192 → Fin 128 → ℝ) : stack (up x) (up y) = up (stackR x y) := by
  funext r d
  unfold stack stackR
  rw [up_apply]
  split_ifs <;> rfl

/-- Scaling commutes with stacking. -/
theorem stackR_unitR (x y : Fin 8192 → Fin 128 → ℝ) : stackR (unitR x) (unitR y) = unitR (stackR x y) := by
  funext r d
  by_cases h : r.val < 8192
  · have hrow : ∀ d', stackR x y r d' = x ⟨r.val, h⟩ d' := fun d' => by unfold stackR; rw [dif_pos h]
    have hn : normR (stackR x y) r = normR x ⟨r.val, h⟩ := by
      unfold normR; simp only [hrow]
    unfold unitR
    rw [hn, hrow]
    unfold stackR
    rw [dif_pos h]
  · have hrow : ∀ d', stackR x y r d' = y ⟨r.val - 8192, by omega⟩ d' := fun d' => by
      unfold stackR; rw [dif_neg h]
    have hn : normR (stackR x y) r = normR y ⟨r.val - 8192, by omega⟩ := by
      unfold normR; simp only [hrow]
    unfold unitR
    rw [hn, hrow]
    unfold stackR
    rw [dif_neg h]

end Cert.Algebra

end
-- ==== Proof.LibBlockSum.lean ====
/-
  A sum over a * b consecutive positions taken block by block.

  The positions 0 .. a*b - 1 fall into a blocks of b consecutive ones: position j lies in block j / b at place j % b,
  and block s holds the positions b*s, b*s + 1, .., b*s + b - 1. In a commutative monoid the sum over all positions is
  therefore the sum over the blocks of each block's own sum. Nothing about the summands is used: the law is the
  regrouping of a finite sum, so it holds on the extended reals with their infinities as well.
-/
import Mathlib.Algebra.BigOperators.Fin
import Mathlib.Logic.Equiv.Fin.Basic
import Mathlib.Data.Fintype.BigOperators

open scoped BigOperators

namespace Cert.LibBlockSum

/-- Place jj of block s is a position below a * b. -/
theorem pos_lt {a b : ℕ} (s : Fin a) (jj : Fin b) : b * s.val + jj.val < a * b := by
  have h1 : s.val + 1 ≤ a := s.isLt
  have h2 : jj.val < b := jj.isLt
  calc b * s.val + jj.val < b * s.val + b := by omega
    _ = b * (s.val + 1) := by rw [Nat.mul_add, Nat.mul_one]
    _ ≤ b * a := Nat.mul_le_mul_left b h1
    _ = a * b := Nat.mul_comm b a

/-- The sum over a * b positions is the sum over the a blocks of the sum over each block's b places. -/
theorem sum_blocks {β : Type*} [AddCommMonoid β] (a b : ℕ) (g : Fin (a * b) → β) :
    ∑ j : Fin (a * b), g j = ∑ s : Fin a, ∑ jj : Fin b, g ⟨b * s.val + jj.val, pos_lt s jj⟩ := by
  rw [← Equiv.sum_comp finProdFinEquiv g, Fintype.sum_prod_type]
  refine Finset.sum_congr rfl fun s _ => Finset.sum_congr rfl fun jj _ => congrArg g (Fin.ext ?_)
  show jj.val + b * s.val = b * s.val + jj.val
  exact Nat.add_comm _ _

/-- The same with the blocks counted by naturals below a, as a fold over a run of points produces them: the summand
    of a block number that is out of range is never used. -/
theorem sum_blocks_range {β : Type*} [AddCommMonoid β] (a b : ℕ) (g : Fin (a * b) → β) (f : ℕ → β)
    (hf : ∀ s : Fin a, f s.val = ∑ jj : Fin b, g ⟨b * s.val + jj.val, pos_lt s jj⟩) :
    ∑ s ∈ Finset.range a, f s = ∑ j : Fin (a * b), g j := by
  rw [sum_blocks a b g, Finset.sum_range]
  exact Finset.sum_congr rfl fun s _ => hf s

end Cert.LibBlockSum
-- ==== Proof.Algebra.Sums.lean ====
/-
  Row sums of exponentials over real entries. For an array z of reals, the exponential of twice the inner product of
  rows r and c is one positive real whichever way the factor two is introduced. The sum taken sixteen column blocks of
  1024 at a time, with the row's own entry subtracted from the block that holds it, and the sum taken all at once with the
  row's own entry masked to zero are the same real number: the sum over the other rows. It is positive because the
  row's partner is another row.
-/
import proofs.«113570_j12652973654546_2_alg».proof.Proof.Algebra.Reals
import proofs.«113570_j12652973654546_2_alg».proof.Proof.LibBlockSum

noncomputable section

open scoped BigOperators

namespace Cert.Algebra

open Idealize.ShloMosaic Cert.Spec Cert.LibRealSums

/-- The inner product of rows r and c. -/
def dotR (z : Fin 16384 → Fin 128 → ℝ) (r c : Fin 16384) : ℝ := ∑ d : Fin 128, z r d * z c d

theorem simK_up (z : Fin 16384 → Fin 128 → ℝ) (r c : Fin 16384) :
    simK (up z) r c = ((2 * dotR z r c : ℝ) : EReal) := by
  unfold simK dotR
  rw [two_eq]
  have h : ∀ d : Fin 128, (up z r d * ((2 : ℝ) : EReal)) * up z c d
      = ((z r d * 2 : ℝ) : EReal) * ((z c d : ℝ) : EReal) := fun d => by
    rw [up_apply, up_apply, EReal.coe_mul]
  rw [Finset.sum_congr rfl fun d _ => h d, sum_mul_coe]
  refine congrArg Real.toEReal ?_
  rw [Finset.mul_sum]
  exact Finset.sum_congr rfl fun d _ => by ring

theorem simR_up (z : Fin 16384 → Fin 128 → ℝ) (r c : Fin 16384) : simR (up z) r c = (dotR z r c : EReal) := by
  unfold simR dotR
  simp only [up_apply]
  exact sum_mul_coe _ _

/-- Dividing a real by one half doubles it. -/
theorem div_half (p : ℝ) : Ideal.div (p : EReal) half = ((2 * p : ℝ) : EReal) := by
  rw [half_eq, Ideal.div_coe (by norm_num), ← EReal.coe_mul]
  refine congrArg Real.toEReal ?_
  ring

/-- The exponential of twice the inner product of rows r and c. -/
def eR (z : Fin 16384 → Fin 128 → ℝ) (r c : Fin 16384) : ℝ := Real.exp (2 * dotR z r c)

theorem eR_pos (z : Fin 16384 → Fin 128 → ℝ) (r c : Fin 16384) : 0 < eR z r c := Real.exp_pos _

theorem expK_up (z : Fin 16384 → Fin 128 → ℝ) (r c : Fin 16384) :
    Ideal.exp (simK (up z) r c) = (eR z r c : EReal) := by
  rw [simK_up, Ideal.exp_coe]; rfl

theorem expR_up (z : Fin 16384 → Fin 128 → ℝ) (r c : Fin 16384) :
    Ideal.exp (Ideal.div (simR (up z) r c) half) = (eR z r c : EReal) := by
  rw [simR_up, div_half, Ideal.exp_coe]; rfl

/-- The exponential for another row, zero for the row itself. -/
def offR (z : Fin 16384 → Fin 128 → ℝ) (r c : Fin 16384) : ℝ := if r = c then 0 else eR z r c

theorem offR_nonneg (z : Fin 16384 → Fin 128 → ℝ) (r c : Fin 16384) : 0 ≤ offR z r c := by
  unfold offR
  split_ifs
  · exact le_rfl
  · exact (eR_pos z r c).le

theorem denR_up (z : Fin 16384 → Fin 128 → ℝ) (r : Fin 16384) :
    denR (up z) r = ((∑ c : Fin 16384, offR z r c : ℝ) : EReal) := by
  unfold denR
  rw [coe_sum]
  refine Finset.sum_congr rfl fun c _ => ?_
  unfold offR
  split_ifs
  · exact EReal.coe_zero.symm
  · exact expR_up z r c

/-- Below sixteen blocks the column index does not wrap. -/
theorem col_val {j : ℕ} (hj : j < 16) (c : Fin 1024) : (col j c).val = 1024 * j + c.val := by
  have hc := c.isLt
  show (1024 * j + c.val) % 16384 = 1024 * j + c.val
  exact Nat.mod_eq_of_lt (by omega)

/-- The block that holds the row's own column meets the diagonal on that row. -/
theorem onDiag_of_eq_col {r : Fin 16384} {j : ℕ} (hj : j < 16) {c : Fin 1024} (h : r = col j c) : onDiag r j := by
  have hv : r.val = 1024 * j + c.val := by rw [h]; exact col_val hj c
  have hc := c.isLt
  unfold onDiag
  omega

/-- One block's share of the row sum is the block's sum of the off-diagonal terms. -/
theorem tileK_up (z : Fin 16384 → Fin 128 → ℝ) (r : Fin 16384) {j : ℕ} (hj : j < 16) :
    tileK (up z) r j = ((∑ c : Fin 1024, offR z r (col j c) : ℝ) : EReal) := by
  have hS : (∑ c : Fin 1024, Ideal.exp (simK (up z) r (col j c)))
      = ((∑ c : Fin 1024, eR z r (col j c) : ℝ) : EReal) := by
    rw [coe_sum]
    exact Finset.sum_congr rfl fun c _ => expK_up z r (col j c)
  unfold tileK
  by_cases hd : onDiag r j
  · have hT : (∑ c : Fin 1024, (if r = col j c then Ideal.exp (simK (up z) r (col j c)) else 0))
        = ((∑ c : Fin 1024, (if r = col j c then eR z r (col j c) else 0) : ℝ) : EReal) := by
      rw [coe_sum]
      refine Finset.sum_congr rfl fun c _ => ?_
      split_ifs
      · exact expK_up z r (col j c)
      · exact EReal.coe_zero.symm
    rw [if_pos hd, hS, hT, ← EReal.coe_sub, ← Finset.sum_sub_distrib]
    refine congrArg Real.toEReal ?_
    refine Finset.sum_congr rfl fun c _ => ?_
    unfold offR
    split_ifs
    · exact sub_self _
    · exact sub_zero _
  · rw [if_neg hd, hS]
    refine congrArg Real.toEReal ?_
    refine Finset.sum_congr rfl fun c _ => ?_
    unfold offR
    rw [if_neg fun h => hd (onDiag_of_eq_col hj h)]

/-- The running sum after n of the sixteen blocks. -/
theorem accK_up (z : Fin 16384 → Fin 128 → ℝ) (r : Fin 16384) : ∀ n : ℕ, n ≤ 16 →
    accK (up z) r n = ((∑ j ∈ Finset.range n, ∑ c : Fin 1024, offR z r (col j c) : ℝ) : EReal)
  | 0, _ => by
    show (0 : EReal) = _
    rw [Finset.range_zero, Finset.sum_empty, EReal.coe_zero]
  | n + 1, h => by
    show accK (up z) r n + tileK (up z) r n = _
    rw [accK_up z r n (by omega), tileK_up z r (by omega), ← EReal.coe_add, Finset.sum_range_succ]

/-- The sixteen blocks of 1024 columns make up all 16384 columns. -/
theorem sum_blocks_offR (z : Fin 16384 → Fin 128 → ℝ) (r : Fin 16384) :
    (∑ j ∈ Finset.range 16, ∑ c : Fin 1024, offR z r (col j c)) = ∑ c : Fin 16384, offR z r c := by
  refine Cert.LibBlockSum.sum_blocks_range 16 1024 (fun c : Fin (16 * 1024) => offR z r c)
    (fun j => ∑ c : Fin 1024, offR z r (col j c)) fun s => ?_
  exact Finset.sum_congr rfl fun jj _ => congrArg (offR z r) (Fin.ext (col_val s.isLt jj))

/-- The row's sum over the other rows, as a real. -/
def sumOff (z : Fin 16384 → Fin 128 → ℝ) (r : Fin 16384) : ℝ := ∑ c : Fin 16384, offR z r c

theorem accK_sixteen (z : Fin 16384 → Fin 128 → ℝ) (r : Fin 16384) : accK (up z) r 16 = (sumOff z r : EReal) := by
  rw [accK_up z r 16 le_rfl, sum_blocks_offR]; rfl

theorem denR_sumOff (z : Fin 16384 → Fin 128 → ℝ) (r : Fin 16384) : denR (up z) r = (sumOff z r : EReal) :=
  denR_up z r

/-- A row is not its own partner. -/
theorem ne_partner (r : Fin 16384) : r ≠ partner r := by
  intro h
  have hv : r.val = (r.val + 8192) % 16384 := congrArg Fin.val h
  have hr := r.isLt
  omega

/-- The sum over the other rows is positive: its terms are not negative and the partner's is positive. -/
theorem sumOff_pos (z : Fin 16384 → Fin 128 → ℝ) (r : Fin 16384) : 0 < sumOff z r := by
  unfold sumOff
  refine Finset.sum_pos' (fun c _ => offR_nonneg z r c) ⟨partner r, Finset.mem_univ _, ?_⟩
  unfold offR
  rw [if_neg (ne_partner r)]
  exact eR_pos z r _

end Cert.Algebra

end
-- ==== Proof.Algebra.lean ====
/-
  The two forms of the contrastive loss agree on real entries.

  With every entry a real number, both arrays are coercions of arrays of reals, and so are the scaled rows: a row's
  length is a positive real, so the division is the real one. Scaling then stacking is stacking then scaling, so both
  losses are about one array z of reals. For each row r, the sum of exponentials taken block by block and the sum taken all
  at once are the same positive real D, the inner product with the partner is the same real p from either pair of
  halves, and log D - 2p = -log (exp (2p) / D). The two outer sums agree term by term, and both are divided by the same
  count.
-/
import proofs.«113570_j12652973654546_2_alg».proof.Proof.Algebra.Sums

noncomputable section

open scoped BigOperators

namespace Cert.Algebra

open Idealize.ShloMosaic Cert.Spec Cert.LibRealSums

/-- The lower rows of the stack are the first array's. -/
theorem stackR_lo (x y : Fin 8192 → Fin 128 → ℝ) (r : Fin 16384) (i : Fin 8192) (hi : r.val = i.val) (d : Fin 128) :
    stackR x y r d = x i d := by
  have h : r.val < 8192 := hi ▸ i.isLt
  obtain rfl : i = ⟨r.val, h⟩ := Fin.ext hi.symm
  unfold stackR
  rw [dif_pos h]

/-- The upper rows of the stack are the second array's. -/
theorem stackR_hi (x y : Fin 8192 → Fin 128 → ℝ) (r : Fin 16384) (i : Fin 8192) (hi : r.val = i.val + 8192)
    (d : Fin 128) : stackR x y r d = y i d := by
  have h : ¬ r.val < 8192 := by omega
  have hb : r.val - 8192 < 8192 := by clear hi; have := r.isLt; omega
  obtain rfl : i = ⟨r.val - 8192, hb⟩ := Fin.ext (by show i.val = r.val - 8192; omega)
  unfold stackR
  rw [dif_neg h]

/-- A row's inner product with its partner, from the two halves, over the reals. -/
def posR (u w : Fin 8192 → Fin 128 → ℝ) (r : Fin 16384) : ℝ :=
  ∑ d : Fin 128, u ⟨r.val % 8192, Nat.mod_lt _ (by norm_num)⟩ d * w ⟨r.val % 8192, Nat.mod_lt _ (by norm_num)⟩ d

theorem posK_up (u w : Fin 8192 → Fin 128 → ℝ) (r : Fin 16384) : posK (up u) (up w) r = (posR u w r : EReal) := by
  unfold posK posR
  simp only [up_apply]
  exact sum_mul_coe _ _

/-- From the two halves or from the stack, the inner product with the partner is the same: below 8192 the partner is
    the same row of the second half, from 8192 on it is the same row of the first half and the factors are swapped. -/
theorem posR_eq (u w : Fin 8192 → Fin 128 → ℝ) (r : Fin 16384) :
    posR u w r = dotR (stackR u w) r (partner r) := by
  unfold posR dotR
  refine Finset.sum_congr rfl fun d _ => ?_
  have hp : (partner r).val = (r.val + 8192) % 16384 := rfl
  have hr := r.isLt
  by_cases h : r.val < 8192
  · rw [stackR_lo u w r ⟨r.val % 8192, Nat.mod_lt _ (by norm_num)⟩ (by show r.val = r.val % 8192; omega) d,
      stackR_hi u w (partner r) ⟨r.val % 8192, Nat.mod_lt _ (by norm_num)⟩
        (by show (partner r).val = r.val % 8192 + 8192; omega) d]
  · rw [stackR_hi u w r ⟨r.val % 8192, Nat.mod_lt _ (by norm_num)⟩ (by show r.val = r.val % 8192 + 8192; omega) d,
      stackR_lo u w (partner r) ⟨r.val % 8192, Nat.mod_lt _ (by norm_num)⟩
        (by show (partner r).val = r.val % 8192; omega) d, mul_comm]

/-- The logarithm of a positive real. -/
theorem log_pos_coe {t : ℝ} (h : 0 < t) : Ideal.log (t : EReal) = (Real.log t : EReal) := by
  rw [Ideal.log_coe, if_neg (not_le.mpr h)]

/-- One row's term: for a real p and a positive real D, log D - p / (1/2) = -log (exp (p / (1/2)) / D). -/
theorem term_eq (p D : ℝ) (hD : 0 < D) :
    Ideal.log (D : EReal) - Ideal.div (p : EReal) half
      = -(Ideal.log (Ideal.div (Ideal.exp (Ideal.div (p : EReal) half)) (D : EReal))) := by
  have hq : 0 < Real.exp (2 * p) * (1 / D) := mul_pos (Real.exp_pos _) (one_div_pos.mpr hD)
  rw [div_half, Ideal.exp_coe, Ideal.div_coe hD.ne', ← EReal.coe_mul, log_pos_coe hD, log_pos_coe hq,
    ← EReal.coe_sub, ← EReal.coe_neg]
  refine congrArg Real.toEReal ?_
  rw [mul_one_div, Real.log_div (Real.exp_pos _).ne' hD.ne', Real.log_exp]
  ring

theorem kernelLoss_eq_referenceLoss (X Y : Fin 8192 → Fin 128 → EReal)
    (hX : Cert.Spec.AllReal X) (hY : Cert.Spec.AllReal Y) :
    Cert.Spec.kernelLoss X Y = Cert.Spec.referenceLoss X Y := by
  obtain ⟨x, rfl⟩ := exists_up X hX
  obtain ⟨y, rfl⟩ := exists_up Y hY
  unfold kernelLoss referenceLoss lossK lossR
  rw [unit_up, unit_up, stack_up, stack_up, unit_up, stackR_unitR]
  refine congrArg (fun t => Ideal.div t cnt) ?_
  refine Finset.sum_congr rfl fun r _ => ?_
  rw [accK_sixteen, posK_up, posR_eq, stackR_unitR, denR_sumOff, simR_up]
  exact term_eq _ _ (sumOff_pos _ r)

end Cert.Algebra

end
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.PreReal.lean ====
/-
  The precondition, entry by entry: when the test "every entry of both arrays has a finite absolute value" answers 1,
  every entry of both arrays is a real number.
-/
import proofs.«113570_j12652973654546_2_alg».proof.Pre_finite_inputs
import proofs.«113570_j12652973654546_2_alg».proof.Proof.LibPreDecode
import proofs.«113570_j12652973654546_2_alg».proof.Proof.Spec
import Idealize.ShloMosaic.Lib.ValueIdx

noncomputable section

namespace Cert.PreReal

open Idealize.ShloMosaic Idealize.ShloMosaic.ValueIdx Cert.Pre_finite_inputs

instance : Subsingleton S_.Idx := ⟨fun a b => funext fun d => d.elim0⟩

/-- Both conjuncts of the test, read back at every entry. -/
theorem real_of_pre [Cert.Pre_finite_inputs.Facts] (x y : FVec Ideal S8192x128 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.1 h0
  exact ⟨Cert.LibPreDecode.all_real x _ (fun _ => rfl) _ _ _ ix0 hx,
    Cert.LibPreDecode.all_real y _ (fun _ => rfl) _ _ _ ix0 hy⟩

/-- An [n,128] array as a function of its two coordinates. -/
def cur {n : ℕ} (A : (⟨2, ![n, 128]⟩ : Shape).Idx → EReal) : Fin n → Fin 128 → EReal := fun r d => A (ix2 r d)

/-- In the spec's words. -/
theorem allReal_of_pre [Cert.Pre_finite_inputs.Facts] (x y : FVec Ideal S8192x128 .f32)
    (h : Cert.Pre_finite_inputs.fn (F := Ideal) x y = fun _ => 1#1) :
    Cert.Spec.AllReal (cur x) ∧ Cert.Spec.AllReal (cur y) :=
  ⟨fun r d => (real_of_pre x y h).1 (ix2 r d), fun r d => (real_of_pre x y h).2 (ix2 r d)⟩

end Cert.PreReal

end
-- ==== Proof.lean ====
/-
  Two programs computing one contrastive loss agree on the extended reals.

  Both scale the rows of two [8192, 128] arrays to unit length, stack them, and average over the 16384 rows the logarithm
  of a sum of exponentials of scaled inner products minus the scaled inner product with the row's partner. One forms the
  sums sixteen column blocks at a time in a kernel that carries a running sum from one grid point to the next; the other
  forms the whole matrix of inner products at once. Each program runs without a fault and leaves its arguments as they
  were; under finite inputs every intermediate quantity is a real number, and the two results are then equal: doubling
  before the product is dividing by one half after it, taking the row's own entry out of its column block is masking it
  to zero, and minus the logarithm of a quotient of a positive numerator by a positive denominator is the denominator's
  logarithm minus the numerator's.
-/
import proofs.«113570_j12652973654546_2_alg».proof.Defs
import proofs.«113570_j12652973654546_2_alg».proof.Proof.Gen.Kernel
import proofs.«113570_j12652973654546_2_alg».proof.Proof.Gen.KernelIdeal
import proofs.«113570_j12652973654546_2_alg».proof.Proof.Gen.ReferenceIdeal
import proofs.«113570_j12652973654546_2_alg».proof.Proof.Gen.Pre_finite_inputs
import proofs.«113570_j12652973654546_2_alg».proof.Proof.BodyB
import proofs.«113570_j12652973654546_2_alg».proof.Proof.KernelRun
import proofs.«113570_j12652973654546_2_alg».proof.Proof.RefValue
import proofs.«113570_j12652973654546_2_alg».proof.Proof.Algebra
import proofs.«113570_j12652973654546_2_alg».proof.Proof.PreReal
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- And the all-at-once program: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on finite arguments both programs end at one loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Sum.run m ρ, ?_⟩
  refine (θ_run Cert.ReferenceIdeal.defs _ _).mono (fun _ h c => ⟨(h c).1.trans ?_, (h c).2⟩) (Cert.RefValue.run m' ρ')
  rw [(hagree c).1, (hagree c).2]
  obtain ⟨hX, hY⟩ := Cert.PreReal.allReal_of_pre _ _ (hpre c)
  exact funext fun _ => (Cert.Algebra.kernelLoss_eq_referenceLoss _ _ hX hY).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
